-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x768 : Shape := ⟨2, ![1024, 768]⟩
abbrev S50000x128 : Shape := ⟨2, ![50000, 128]⟩
abbrev S2x800000 : Shape := ⟨2, ![2, 800000]⟩
abbrev S50000 : Shape := ⟨1, ![50000]⟩
abbrev S768x128 : Shape := ⟨2, ![768, 128]⟩
abbrev S128 : Shape := ⟨1, ![128]⟩
abbrev S128x128 : Shape := ⟨2, ![128, 128]⟩
abbrev S256x128 : Shape := ⟨2, ![256, 128]⟩
abbrev S128x12 : Shape := ⟨2, ![128, 12]⟩
abbrev S12 : Shape := ⟨1, ![12]⟩
abbrev S_ : Shape := ⟨0, ![]⟩

class Facts : Prop where
  bcast_S_S1024x768 : S_.BroadcastsInDim S1024x768 (![] : Fin 0 → Fin S1024x768.rank)
  reducesTo_S1024x768_S_d0_1 : S1024x768.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x12 .f32) (main_arg15 : FVec F S12 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x12 .f32 := Host.absf main_arg14
  let main_cst_22 : FVec F S_ .f32 := constant S_ .f32 0x7F800000#32
  let main_v60 : FVec F S128x12 .f32 := broadcastInDim S128x12 ![] bcast_S_S128x12 main_cst_22
  let main_v61 : IVec S128x12 1 := cmpf .olt main_v59 main_v60
  let main_c_23 : IVec S_ 1 := constantI S_ 1 1#1
  let main_v62 : IVec S_ 1 := (fun x v => Host.reduce IntOp.andi x v reducesTo_S128x12_S_d0_1 h_S_) main_v61 main_c_23
  let main_v63 : IVec S_ 1 := andi main_v58 main_v62
  let main_v64 : FVec F S12 .f32 := Host.absf main_arg15
  let main_cst_24 : FVec F S_ .f32 := constant S_ .f32 0x7F800000#32
  let main_v65 : FVec F S12 .f32 := broadcastInDim S12 ![] bcast_S_S12 main_cst_24
  let main_v66 : IVec S12 1 := cmpf .olt main_v64 main_v65
  let main_c_25 : IVec S_ 1 := constantI S_ 1 1#1
  let main_v67 : IVec S_ 1 := (fun x v => Host.reduce IntOp.andi x v reducesTo_S12_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S256x128 .f32) (main_arg13 : FVec F S128 .f32) (main_arg14 : FVec F S128x12 .f32) (main_arg15 : FVec F S12 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x128 .f32) (main_arg13 : FVec F S128 .f32) (main_arg14 : FVec F S128x12 .f32) (main_arg15 : FVec F S12 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S1024x768 .f32) (main_arg1 : FVec F S50000x128 .f32) (main_arg2 : IVec S2x800000 32) (main_arg3 : IVec S50000 32) (main_arg4 : FVec F S768x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x128 .f32) (main_arg13 : FVec F S128 .f32) (main_arg14 : FVec F S128x12 .f32) (main_arg15 : FVec F S12 .f32) : IVec S_ 1 :=
  let main_v0 : FVec F S1024x768 .f32 := Host.absf main_arg0
  let main_cst : FVec F S_ .f32 := constant S_ .f32 0x7F800000#32
  let main_v1 : FVec F S1024x768 .f32 := broadcastInDim S1024x768 ![] bcast_S_S1024x768 main_cst
  let main_v2 : IVec S1024x768 1 := cmpf .olt main_v0 main_v1
  let main_c : IVec S_ 1 := constantI S_ 1 1#1
  let main_v3 : IVec S_ 1 := (fun x v => Host.reduce IntOp.andi x v reducesTo_S1024x768_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S768x128 .f32 := Host.absf main_arg4
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S1024x768 : Shape := ⟨2, ![1024, 768]⟩
abbrev S50000x128 : Shape := ⟨2, ![50000, 128]⟩
abbrev S2x800000 : Shape := ⟨2, ![2, 800000]⟩
abbrev S50000 : Shape := ⟨1, ![50000]⟩
abbrev S768x128 : Shape := ⟨2, ![768, 128]⟩
abbrev S128 : Shape := ⟨1, ![128]⟩
abbrev S128x128 : Shape := ⟨2, ![128, 128]⟩
abbrev S256x128 : Shape := ⟨2, ![256, 128]⟩
abbrev S128x12 : Shape := ⟨2, ![128, 12]⟩
abbrev S12 : Shape := ⟨1, ![12]⟩
abbrev S1x128 : Shape := ⟨2, ![1, 128]⟩
abbrev S1024x128 : Shape := ⟨2, ![1024, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S50000x1 : Shape := ⟨2, ![50000, 1]⟩
abbrev S1024 : Shape := ⟨1, ![1024]⟩
abbrev S1024x1 : Shape := ⟨2, ![1024, 1]⟩
abbrev S1024x256 : Shape := ⟨2, ![1024, 256]⟩
abbrev S1x12 : Shape := ⟨2, ![1, 12]⟩
abbrev S1024x12 : Shape := ⟨2, ![1024, 12]⟩

abbrev nBuf : Space → Nat
  | .hbm => 121
  | .vmem => 22
  | .smem => 0
  | _ => 0

abbrev bufTy : (tb : Table) → Fin (tcTables nBuf tb) → BufTy
  | .hbm, ⟨0, _⟩ => ⟨S1024x768, .f32⟩
  | .hbm, ⟨1, _⟩ => ⟨S50000x128, .f32⟩
  | .hbm, ⟨2, _⟩ => ⟨S2x800000, .i32⟩
  | .hbm, ⟨3, _⟩ => ⟨S50000, .i32⟩
  | .hbm, ⟨4, _⟩ => ⟨S768x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x12, .f32⟩
  | .hbm, ⟨15, _⟩ => ⟨S12, .f32⟩
  | .hbm, ⟨16, _⟩ => ⟨S1x128, .f32⟩
  | .hbm, ⟨17, _⟩ => ⟨S1x128, .f32⟩
  | .hbm, ⟨18, _⟩ => ⟨S1024x128, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S50000, .i32⟩
  | .hbm, ⟨24, _⟩ => ⟨S850000, .i32⟩
  | .hbm, ⟨25, _⟩ => ⟨S850000, .i32⟩
  | .hbm, ⟨26, _⟩ => ⟨S_, .f32⟩
  | .hbm, ⟨27, _⟩ => ⟨S850000, .f32⟩
  | .hbm, ⟨28, _⟩ => ⟨S_, .f32⟩
  | .hbm, ⟨29, _⟩ => ⟨S50000, .f32⟩
  | .hbm, ⟨30, _⟩ => ⟨S850000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S850000x1, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S850000x128, .f32⟩
  | .hbm, ⟨90, _⟩ => ⟨S850000x128, .f32⟩
  | .hbm, ⟨91, _⟩ => ⟨S_, .f32⟩
  | .hbm, ⟨92, _⟩ => ⟨S50000x128, .f32⟩
  | .hbm, ⟨93, _⟩ => ⟨S850000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S1024x128, .f32⟩
  | .hbm, ⟨103, _⟩ => ⟨S50000x1, .i32⟩
  | .hbm, ⟨104, _⟩ => ⟨S1024x128, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S1024, .f32⟩
  | .hbm, ⟨109, _⟩ => ⟨S50000x1, .i32⟩
  | .hbm, ⟨110, _⟩ => ⟨S1024, .f32⟩
  | .hbm, ⟨111, _⟩ => ⟨S_, .f32⟩
  | .hbm, ⟨112, _⟩ => ⟨S1024, .f32⟩
  | .hbm, ⟨113, _⟩ => ⟨S1024, .f32⟩
  | .hbm, ⟨114, _⟩ => ⟨S1024x1, .f32⟩
  | .hbm, ⟨115, _⟩ => ⟨S1024x128, .f32⟩
  | .hbm, ⟨116, _⟩ => ⟨S1024x128, .f32⟩
  | .hbm, ⟨117, _⟩ => ⟨S1024x256, .f32⟩
  | .hbm, ⟨118, _⟩ => ⟨S1x128, .f32⟩
  | .hbm, ⟨119, _⟩ => ⟨S1x12, .f32⟩
  | .hbm, ⟨120, _⟩ => ⟨S1024x12, .f32⟩
  | .local _ .vmem, ⟨0, _⟩ => ⟨S1024x768, .f32⟩
  | .local _ .vmem, ⟨1, _⟩ => ⟨S768x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S1024x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S1024x256, .f32⟩
  | .local _ .vmem, ⟨17, _⟩ => ⟨S256x128, .f32⟩
  | .local _ .vmem, ⟨18, _⟩ => ⟨S1x128, .f32⟩
  | .local _ .vmem, ⟨19, _⟩ => ⟨S128x12, .f32⟩
  | .local _ .vmem, ⟨20, _⟩ => ⟨S1x12, .f32⟩
  | .local _ .vmem, ⟨21, _⟩ => ⟨S1024x12, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call1_cst : Ref sig .tc := ⟨.hbm, 98, rfl⟩
abbrev main_call1_v0 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x12 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x12 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x12 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  shapeCasts_S128_S1x128 : S128.ShapeCasts S1x128
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  shapeCasts_S12_S1x12 : S12.ShapeCasts S1x12
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S128x12_S128x12_0_0 : ∀ a, (![0, 0] : Fin 2 → Nat) a + S128x12.size a ≤ S128x12.size a
  h_S128x12 : 0 < S128x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1024x12 : S1x12.Broadcasts S1024x12
  inb_S1024x12_S1024x12_0_0 : ∀ a, (![0, 0] : Fin 2 → Nat) a + S1024x12.size a ≤ S1024x12.size a
  h_S1024x12 : 0 < S1024x12.numel
  dot_S1024x768_S768x128_S1024x128_1_0_0_1_n_n_wf : DotDims.WF S1024x768 S768x128 S1024x128 [1] [0] [0] [1] [] []
  dot_S1024x128_S128x128_S1024x128_1_0_0_1_n_n_wf : DotDims.WF S1024x128 S128x128 S1024x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x256_S256x128_S1024x128_1_0_0_1_n_n_wf : DotDims.WF S1024x256 S256x128 S1024x128 [1] [0] [0] [1] [] []
  dot_S1024x128_S128x12_S1024x12_1_0_0_1_n_n_wf : DotDims.WF S1024x128 S128x12 S1024x12 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .f32 = 32 ∨ (Rect.block (s := S1024x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S1024x256.size a
  hwx3_0 : ∀ i : grid3.Coords, EltTy.bits .f32 = 32 ∨ (Rect.block (s := S1024x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x12.size a ≤ S128x12.size a
  hwx3_3 : ∀ i : grid3.Coords, EltTy.bits .f32 = 32 ∨ (Rect.block (s := S128x12) S128x12.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x12.size a ≤ S1x12.size a
  hwx3_4 : ∀ i : grid3.Coords, EltTy.bits .f32 = 32 ∨ (Rect.block (s := S1x12) S1x12.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x12.size a ≤ S1024x12.size a
  hwx3_5 : ∀ i : grid3.Coords, EltTy.bits .f32 = 32 ∨ (Rect.block (s := S1024x12) S1024x12.size (cc3_transform_5 i) (hinb3_5 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x12_S1024x12_1_0_0_1_n_n : DotDims S1024x128 S128x12 S1024x12 where
  lhsContracting := [1]
  rhsContracting := [0]
  lhsNonContracting := [0]
  rhsNonContracting := [1]
  lhsBatch := []
  rhsBatch := []
  wf := dot_S1024x128_S128x12_S1024x12_1_0_0_1_n_n_wf

abbrev win0_0 : Pipeline.Window sig grid0 :=
  Pipeline.Window.ofSpec (Memref.whole main_arg0) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S1024x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x12.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x12.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S1024x12.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1024x768 : Shape := ⟨2, ![1024, 768]⟩
abbrev S50000x128 : Shape := ⟨2, ![50000, 128]⟩
abbrev S2x800000 : Shape := ⟨2, ![2, 800000]⟩
abbrev S50000 : Shape := ⟨1, ![50000]⟩
abbrev S768x128 : Shape := ⟨2, ![768, 128]⟩
abbrev S128 : Shape := ⟨1, ![128]⟩
abbrev S128x128 : Shape := ⟨2, ![128, 128]⟩
abbrev S256x128 : Shape := ⟨2, ![256, 128]⟩
abbrev S128x12 : Shape := ⟨2, ![128, 12]⟩
abbrev S12 : Shape := ⟨1, ![12]⟩
abbrev S1024x128 : Shape := ⟨2, ![1024, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S50000x1 : Shape := ⟨2, ![50000, 1]⟩
abbrev S1024 : Shape := ⟨1, ![1024]⟩
abbrev S1024x1 : Shape := ⟨2, ![1024, 1]⟩
abbrev S1024x256 : Shape := ⟨2, ![1024, 256]⟩
abbrev S1024x12 : Shape := ⟨2, ![1024, 12]⟩
abbrev S1x12 : Shape := ⟨2, ![1, 12]⟩

abbrev nBuf : Space → Nat
  | .hbm => 177
  | .vmem => 0
  | .smem => 0
  | _ => 0

abbrev hbmTy0_0 (i : Nat) : BufTy := match i % 128 with
  | 0 => ⟨S1024x768, .f32⟩
  | 1 => ⟨S50000x128, .f32⟩
  | 2 => ⟨S2x800000, .i32⟩
  | 3 => ⟨S50000, .i32⟩
  | 4 => ⟨S768x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S128x12, .f32⟩
  | 15 => ⟨S12, .f32⟩
  | 16 => ⟨S1024x128, .f32⟩
  | 17 => ⟨S1x128, .f32⟩
  | 18 => ⟨S1024x128, .f32⟩
  | 19 => ⟨S1024x128, .f32⟩
  | 20 => ⟨S_, .f32⟩
  | 21 => ⟨S1024x128, .f32⟩
  | 22 => ⟨S1024x128, .f32⟩
  | 23 => ⟨S1024x128, .f32⟩
  | 24 => ⟨S1x128, .f32⟩
  | 25 => ⟨S1024x128, .f32⟩
  | 26 => ⟨S1024x128, .f32⟩
  | 27 => ⟨S1x800000, .i32⟩
  | 28 => ⟨S800000, .i32⟩
  | 29 => ⟨S1x800000, .i32⟩
  | 30 => ⟨S800000, .i32⟩
  | 31 => ⟨S50000x128, .f32⟩
  | 32 => ⟨S50000, .i32⟩
  | 33 => ⟨S850000, .i32⟩
  | 34 => ⟨S850000, .i32⟩
  | 35 => ⟨S_, .f32⟩
  | 36 => ⟨S850000, .f32⟩
  | 37 => ⟨S_, .f32⟩
  | 38 => ⟨S50000, .f32⟩
  | 39 => ⟨S850000x1, .i32⟩
  | 40 => ⟨S50000, .f32⟩
  | 41 => ⟨S_, .f32⟩
  | 42 => ⟨S50000, .f32⟩
  | 43 => ⟨S50000, .i1⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x128, .f32⟩
  | 77 => ⟨S850000x1, .f32⟩
  | 78 => ⟨S850000x128, .f32⟩
  | 79 => ⟨S850000x128, .f32⟩
  | 80 => ⟨S_, .f32⟩
  | 81 => ⟨S50000x128, .f32⟩
  | 82 => ⟨S850000x1, .i32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S50000, .i32⟩
  | 92 => ⟨S850000, .i32⟩
  | 93 => ⟨S850000, .i32⟩
  | 94 => ⟨S_, .f32⟩
  | 95 => ⟨S850000, .f32⟩
  | 96 => ⟨S_, .f32⟩
  | 97 => ⟨S50000, .f32⟩
  | 98 => ⟨S850000x1, .i32⟩
  | 99 => ⟨S50000, .f32⟩
  | 100 => ⟨S_, .f32⟩
  | 101 => ⟨S50000, .f32⟩
  | 102 => ⟨S50000, .i1⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S850000, .f32⟩
  | 127 => ⟨S_, .i32⟩
  | _ => ⟨S1024x768, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x128, .f32⟩
  | 8 => ⟨S850000x1, .f32⟩
  | 9 => ⟨S850000x128, .f32⟩
  | 10 => ⟨S850000x128, .f32⟩
  | 11 => ⟨S_, .f32⟩
  | 12 => ⟨S50000x128, .f32⟩
  | 13 => ⟨S850000x1, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .f32⟩
  | 22 => ⟨S1024x128, .f32⟩
  | 23 => ⟨S50000x1, .i32⟩
  | 24 => ⟨S1024x128, .f32⟩
  | 25 => ⟨S_, .f32⟩
  | 26 => ⟨S50000, .f32⟩
  | 27 => ⟨S_, .f32⟩
  | 28 => ⟨S1024, .f32⟩
  | 29 => ⟨S50000x1, .i32⟩
  | 30 => ⟨S1024, .f32⟩
  | 31 => ⟨S_, .f32⟩
  | 32 => ⟨S1024, .f32⟩
  | 33 => ⟨S1024, .f32⟩
  | 34 => ⟨S1024x1, .f32⟩
  | 35 => ⟨S1024x128, .f32⟩
  | 36 => ⟨S1024x128, .f32⟩
  | 37 => ⟨S1024x256, .f32⟩
  | 38 => ⟨S1024x128, .f32⟩
  | 39 => ⟨S1x128, .f32⟩
  | 40 => ⟨S1024x128, .f32⟩
  | 41 => ⟨S1024x128, .f32⟩
  | 42 => ⟨S_, .f32⟩
  | 43 => ⟨S1024x128, .f32⟩
  | 44 => ⟨S1024x128, .f32⟩
  | 45 => ⟨S1024x12, .f32⟩
  | 46 => ⟨S1x12, .f32⟩
  | 47 => ⟨S1024x12, .f32⟩
  | 48 => ⟨S1024x12, .f32⟩
  | _ => ⟨S1024x768, .f32⟩

abbrev hbmTy (i : Nat) : BufTy := match i / 128 with
  | 0 => hbmTy0_0 i
  | 1 => hbmTy0_1 i
  | _ => ⟨S1024x768, .f32⟩

abbrev bufTy : (tb : Table) → Fin (tcTables nBuf tb) → BufTy
  | .hbm, ⟨i, _⟩ => hbmTy i
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_6 : Ref sig .tc := ⟨.hbm, 68, rfl⟩
abbrev main_v40 : Ref sig .tc := ⟨.hbm, 69, rfl⟩
abbrev main_v41 : Ref sig .tc := ⟨.hbm, 70, rfl⟩
abbrev main_c_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call2_cst : Ref sig .tc := ⟨.hbm, 87, rfl⟩
abbrev main_call2_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_call3_v0 : Ref sig .tc := ⟨.hbm, 105, rfl⟩
abbrev main_call3_v1 : Ref sig .tc := ⟨.hbm, 106, rfl⟩
abbrev main_v68 : Ref sig .tc := ⟨.hbm, 107, rfl⟩
abbrev main_c_13 : Ref sig .tc := ⟨.hbm, 108, rfl⟩
abbrev main_v69 : Ref sig .tc := ⟨.hbm, 109, rfl⟩
abbrev main_v70 : Ref sig .tc := ⟨.hbm, 110, rfl⟩
abbrev main_c_14 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_15 : Ref sig .tc := ⟨.hbm, 117, rfl⟩
abbrev main_v76 : Ref sig .tc := ⟨.hbm, 118, rfl⟩
abbrev main_v77 : Ref sig .tc := ⟨.hbm, 119, rfl⟩
abbrev main_c_16 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_17 : Ref sig .tc := ⟨.hbm, 127, rfl⟩
abbrev main_v84 : Ref sig .tc := ⟨.hbm, 128, rfl⟩
abbrev main_v85 : Ref sig .tc := ⟨.hbm, 129, rfl⟩
abbrev main_c_18 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_19 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call4_cst : Ref sig .tc := ⟨.hbm, 146, rfl⟩
abbrev main_call4_v0 : Ref sig .tc := ⟨.hbm, 147, rfl⟩
abbrev main_v100 : Ref sig .tc := ⟨.hbm, 148, rfl⟩
abbrev main_cst_20 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_21 : Ref sig .tc := ⟨.hbm, 153, rfl⟩
abbrev main_v104 : Ref sig .tc := ⟨.hbm, 154, rfl⟩
abbrev main_cst_22 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_23 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_call5_cst : Ref sig .tc := ⟨.hbm, 170, rfl⟩
abbrev main_call5_v0 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  bcast_S12_S1x12_1 : S12.BroadcastsInDim S1x12 (![1] : Fin 1 → Fin S1x12.rank)
  bcast_S1x12_S1024x12_0_1 : S1x12.BroadcastsInDim S1024x12 (![0, 1] : Fin 2 → Fin S1024x12.rank)
  dot_S1024x768_S768x128_S1024x128_1_0_0_1_n_n_wf : DotDims.WF S1024x768 S768x128 S1024x128 [1] [0] [0] [1] [] []
  dot_S1024x128_S128x128_S1024x128_1_0_0_1_n_n_wf : DotDims.WF S1024x128 S128x128 S1024x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x256_S256x128_S1024x128_1_0_0_1_n_n_wf : DotDims.WF S1024x256 S256x128 S1024x128 [1] [0] [0] [1] [] []
  dot_S1024x128_S128x12_S1024x12_1_0_0_1_n_n_wf : DotDims.WF S1024x128 S128x12 S1024x12 [1] [0] [0] [1] [] []

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x12_S1024x12_1_0_0_1_n_n : DotDims S1024x128 S128x12 S1024x12 where
  lhsContracting := [1]
  rhsContracting := [0]
  lhsNonContracting := [0]
  rhsNonContracting := [1]
  lhsBatch := []
  rhsBatch := []
  wf := dot_S1024x128_S128x12_S1024x12_1_0_0_1_n_n_wf

class Facts : Prop extends Facts₀ where

variable [Facts]
-- ==== Proof.KernelRun.lean ====
/-
  The idealized kernel's run, with its result named.

  The program is four pipelined regions among stretches of host operations.  Its frame run threads the contents of every
  unscoped buffer through the twelve segments and reads the argument arrays off the last boundary; read at the result
  buffer as well, the same run says that every weakly fair execution ends with the result array at the last
  boundary's contents there, the arguments unchanged.
-/
import proofs.«129378_j20761871909702_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result array at the
    last boundary's contents and the argument arrays as launched. -/
theorem run_result : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Result

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«129378_j20761871909702_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibMlpRows.lean ====
/-
  The network's dense layers in two spellings, read at one index, on the extended reals.

  A two-layer perceptron sends a row x of an [M, K] array to  max(x·W₁ + b₁, 0)·W₂ + b₂ ; a graph layer's dense half
  sends it to x·W, or to max(x, 0)·W when the previous layer's clipping is fused into it.  Over one block of rows the
  products are matrix products into a zero accumulator, the biases are [1, n] rows repeated over the rows and the zero
  is a splat scalar; over whole arrays they are the host's contraction, broadcast and maximum.  Narrowing an operand to a
  shorter float format changes nothing on the extended reals.  Each lemma reads one spelling at (r, c); both spellings
  of a layer read the same expression, so a block of rows of the whole-array form is the block form of those rows.
  A length-n vector reshaped to a [1, n] row is also its broadcast to that row.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«129378_j20761871909702_1_alg».proof.Proof.LibRowOps
import proofs.«129378_j20761871909702_1_alg».proof.Proof.LibDense

noncomputable section

namespace Cert.Layers

open Idealize.ShloMosaic Idealize.ShloMosaic.ValueIdx Cert.RowOps Cert.Dense

/-! ## Rows -/

section Rows

variable {α : Type} {a n : Nat}

/-- A [1, n] row repeated over the rows of an [a, n] array by the host's broadcast reads, at (p, c), the row at (0, c). -/
theorem hostRow_apply (v : (⟨2, ![1, n]⟩ : Shape).Idx → α)
    (h : (⟨2, ![1, n]⟩ : Shape).BroadcastsInDim ⟨2, ![a, n]⟩ ![0, 1]) (p : Fin a) (c : Fin n) :
    broadcastInDim ⟨2, ![a, n]⟩ ![0, 1] h v (ix2 p c) = v (ix2 (0 : Fin 1) c) :=
  broadcastInDim_apply ![0, 1] h v (ix2 p c) (ix2 (0 : Fin 1) c) (fun ax => by
    match ax with
    | ⟨0, _⟩ => show (0 : Nat) = if (1 : Nat) = 1 then 0 else p.val; rw [if_pos rfl]
    | ⟨1, _⟩ =>
      show c.val = if n = 1 then 0 else c.val
      split
      · have := c.isLt; omega
      · rfl)

/-- A length-n vector reshaped to a [1, n] row is its broadcast to that row along the second axis. -/
theorem row_eq_broadcast (v : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ v hs = broadcastInDim ⟨2, ![1, n]⟩ ![1] hb v := by
  funext j
  obtain ⟨p, q, rfl⟩ : ∃ (p : Fin 1) (q : Fin n), j = ix2 p q := ⟨j 0, j 1, eq_ix2 j⟩
  have hp : p.val = 0 := by omega
  rw [shapeCast_apply v hs (ix2 p q) (ix1 q) (by
      rw [Shape.rowMajor_val_one, Shape.rowMajor_val_two]
      show q.val = p.val * n + q.val
      rw [hp]; omega)]
  exact (broadcastInDim_apply ![1] hb v (ix2 p q) (ix1 q) (fun ax => by
    match ax with
    | ⟨0, _⟩ =>
      show q.val = if n = 1 then 0 else q.val
      split
      · have := q.isLt; omega
      · rfl)).symm

end Rows

/-! ## A product of rows with a weight -/

section Product

variable {M K N : Nat} {d : DotDims ⟨2, ![M, K]⟩ ⟨2, ![K, N]⟩ ⟨2, ![M, N]⟩}

/-- Over one block, both operands narrowed first: the sum over the shared axis. -/
theorem blockProduct_apply (hd : IsPlain d) (x : FVec Ideal ⟨2, ![M, K]⟩ .f32) (w : FVec Ideal ⟨2, ![K, N]⟩ .f32)
    (ht : FTy.bf16.bits < FTy.f32.bits) (r : Fin M) (c : Fin N) :
    matmul d none (truncf .bf16 x ht) (truncf .bf16 w ht) (constant ⟨2, ![M, N]⟩ .f32 0x00000000#32) (ix2 r c)
      = ∑ k : Fin K, x (ix2 r k) * w (ix2 k c) :=
  matmul_zero_apply hd none (truncf .bf16 x ht) (truncf .bf16 w ht) r c

/-- Over one block, the rows clipped at zero first. -/
theorem blockClipProduct_apply (hd : IsPlain d) (x : FVec Ideal ⟨2, ![M, K]⟩ .f32) (w : FVec Ideal ⟨2, ![K, N]⟩ .f32)
    (hs : (⟨2, ![M, K]⟩ : Shape).ShapeCasts ⟨2, ![M, K]⟩)
    (ht : FTy.bf16.bits < FTy.f32.bits) (r : Fin M) (c : Fin N) :
    matmul d none (truncf .bf16 (maximumf (shapeCast ⟨2, ![M, K]⟩ x hs)
        (broadcast ⟨2, ![M, K]⟩ (Scalar.ofBits (F := Ideal) .f32 0x00000000#32))) ht) (truncf .bf16 w ht)
        (constant ⟨2, ![M, N]⟩ .f32 0x00000000#32) (ix2 r c)
      = ∑ k : Fin K, max (x (ix2 r k)) z * w (ix2 k c) := by
  rw [shapeCast_self]
  exact matmul_zero_apply hd none (truncf .bf16 (maximumf x
    (broadcast ⟨2, ![M, K]⟩ (Scalar.ofBits (F := Ideal) .f32 0x00000000#32))) ht) (truncf .bf16 w ht) r c

/-- Over whole arrays, the rows clipped at zero first. -/
theorem hostClipProduct_apply (hd : IsPlain d) (X : FVec Ideal ⟨2, ![M, K]⟩ .f32) (W : FVec Ideal ⟨2, ![K, N]⟩ .f32)
    (h0 : (⟨0, ![]⟩ : Shape).BroadcastsInDim ⟨2, ![M, K]⟩ ![]) (r : Fin M) (c : Fin N) :
    Host.dotGeneral d none (maximumf X
        (broadcastInDim ⟨2, ![M, K]⟩ ![] h0 (constant (F := Ideal) ⟨0, ![]⟩ .f32 0x00000000#32))) W (ix2 r c)
      = ∑ k : Fin K, max (X (ix2 r k)) z * W (ix2 k c) := by
  refine (hostDot_apply hd none .single _ W r c).trans (Finset.sum_congr rfl fun k _ => ?_)
  rw [maximumf_apply, broadcastInDim_scalar_apply, constant_apply]

end Product

/-! ## A two-layer perceptron -/

section Perceptron

variable {M K H N : Nat} {d1 : DotDims ⟨2, ![M, K]⟩ ⟨2, ![K, H]⟩ ⟨2, ![M, H]⟩}
  {d2 : DotDims ⟨2, ![M, H]⟩ ⟨2, ![H, N]⟩ ⟨2, ![M, N]⟩}

/-- The perceptron's value at (r, c), its biases given as rows. -/
def mlpAt (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) : EReal :=
  (∑ j : Fin H, max ((∑ k : Fin K, x (ix2 r k) * w1 (ix2 k j)) + b1 (ix2 (0 : Fin 1) j)) z * w2 (ix2 j c))
    + b2 (ix2 (0 : Fin 1) c)

/-- The hidden layer over one block, at (r, j). -/
theorem blockHidden_apply (hd1 : IsPlain d1) (x : FVec Ideal ⟨2, ![M, K]⟩ .f32) (w1 : FVec Ideal ⟨2, ![K, H]⟩ .f32)
    (b1 : FVec Ideal ⟨2, ![1, H]⟩ .f32) (hb1 : (⟨2, ![1, H]⟩ : Shape).Broadcasts ⟨2, ![M, H]⟩)
    (ht : FTy.bf16.bits < FTy.f32.bits) (r : Fin M) (j : Fin H) :
    maximumf (addf (matmul d1 none (truncf .bf16 x ht) (truncf .bf16 w1 ht) (constant ⟨2, ![M, H]⟩ .f32 0x00000000#32))
        (broadcastTo ⟨2, ![M, H]⟩ b1 hb1))
        (broadcast ⟨2, ![M, H]⟩ (Scalar.ofBits (F := Ideal) .f32 0x00000000#32)) (ix2 r j)
      = max ((∑ k : Fin K, x (ix2 r k) * w1 (ix2 k j)) + b1 (ix2 (0 : Fin 1) j)) z := by
  rw [maximumf_apply, addf_apply, broadcastTo_1b_ab_apply, broadcast_apply,
    blockProduct_apply hd1 x w1 ht r j]
  rfl

/-- The perceptron over one block of rows, at (r, c). -/
theorem blockMlp_apply (hd1 : IsPlain d1) (hd2 : IsPlain d2) (x : FVec Ideal ⟨2, ![M, K]⟩ .f32)
    (w1 : FVec Ideal ⟨2, ![K, H]⟩ .f32) (b1 : FVec Ideal ⟨2, ![1, H]⟩ .f32) (w2 : FVec Ideal ⟨2, ![H, N]⟩ .f32)
    (b2 : FVec Ideal ⟨2, ![1, N]⟩ .f32)
    (hs1 : (⟨2, ![1, H]⟩ : Shape).ShapeCasts ⟨2, ![1, H]⟩) (hb1 : (⟨2, ![1, H]⟩ : Shape).Broadcasts ⟨2, ![M, H]⟩)
    (hs2 : (⟨2, ![1, N]⟩ : Shape).ShapeCasts ⟨2, ![1, N]⟩) (hb2 : (⟨2, ![1, N]⟩ : Shape).Broadcasts ⟨2, ![M, N]⟩)
    (ht : FTy.bf16.bits < FTy.f32.bits) (r : Fin M) (c : Fin N) :
    addf (matmul d2 none (truncf .bf16 (maximumf (addf (matmul d1 none (truncf .bf16 x ht) (truncf .bf16 w1 ht)
          (constant ⟨2, ![M, H]⟩ .f32 0x00000000#32)) (broadcastTo ⟨2, ![M, H]⟩ (shapeCast ⟨2, ![1, H]⟩ b1 hs1) hb1))
          (broadcast ⟨2, ![M, H]⟩ (Scalar.ofBits (F := Ideal) .f32 0x00000000#32))) ht) (truncf .bf16 w2 ht)
          (constant ⟨2, ![M, N]⟩ .f32 0x00000000#32))
        (broadcastTo ⟨2, ![M, N]⟩ (shapeCast ⟨2, ![1, N]⟩ b2 hs2) hb2) (ix2 r c)
      = mlpAt x w1 b1 w2 b2 r c := by
  rw [shapeCast_self b1 hs1, shapeCast_self b2 hs2, addf_apply, broadcastTo_1b_ab_apply]
  unfold mlpAt
  refine congrArg (· + b2 (ix2 (0 : Fin 1) c)) ?_
  refine (matmul_zero_apply hd2 none _ (truncf .bf16 w2 ht) r c).trans (Finset.sum_congr rfl fun j _ => ?_)
  refine congrArg (· * w2 (ix2 j c)) ?_
  exact blockHidden_apply hd1 x w1 b1 hb1 ht r j

/-- The perceptron over whole arrays, at (r, c). -/
theorem hostMlp_apply (hd1 : IsPlain d1) (hd2 : IsPlain d2) (X : FVec Ideal ⟨2, ![M, K]⟩ .f32)
    (W1 : FVec Ideal ⟨2, ![K, H]⟩ .f32) (B1 : FVec Ideal ⟨2, ![1, H]⟩ .f32) (W2 : FVec Ideal ⟨2, ![H, N]⟩ .f32)
    (B2 : FVec Ideal ⟨2, ![1, N]⟩ .f32)
    (h2 : (⟨2, ![1, H]⟩ : Shape).BroadcastsInDim ⟨2, ![M, H]⟩ ![0, 1])
    (h0 : (⟨0, ![]⟩ : Shape).BroadcastsInDim ⟨2, ![M, H]⟩ ![])
    (g2 : (⟨2, ![1, N]⟩ : Shape).BroadcastsInDim ⟨2, ![M, N]⟩ ![0, 1]) (r : Fin M) (c : Fin N) :
    addf (Host.dotGeneral d2 none (maximumf (addf (Host.dotGeneral d1 none X W1)
          (broadcastInDim ⟨2, ![M, H]⟩ ![0, 1] h2 B1))
          (broadcastInDim ⟨2, ![M, H]⟩ ![] h0 (constant (F := Ideal) ⟨0, ![]⟩ .f32 0x00000000#32))) W2)
        (broadcastInDim ⟨2, ![M, N]⟩ ![0, 1] g2 B2) (ix2 r c)
      = mlpAt X W1 B1 W2 B2 r c := by
  rw [addf_apply, hostRow_apply]
  unfold mlpAt
  refine congrArg (· + B2 (ix2 (0 : Fin 1) c)) ?_
  refine (hostDot_apply hd2 none .single _ W2 r c).trans (Finset.sum_congr rfl fun j _ => ?_)
  refine congrArg (· * W2 (ix2 j c)) ?_
  rw [maximumf_apply, addf_apply, hostRow_apply, broadcastInDim_scalar_apply, constant_apply]
  exact congrArg (fun s => max (s + B1 (ix2 (0 : Fin 1) j)) z) (hostDot_apply hd1 none .single X W1 r j)

end Perceptron

end Cert.Layers

end
-- ==== Proof.Encoder.lean ====
/-
  The sequence encoder: a two-layer perceptron over the [1024, 768] input rows.

  The region is one grid point whose blocks are the whole arrays: it reads the input, the two weights and the two biases
  (each bias a [1, 128] row), and stores  max(x·W₁ + b₁, 0)·W₂ + b₂ .  Read at an index the block form and the host's
  whole-array form of this perceptron are one expression, so the output array ends at the whole-array form of the region's
  five input arrays.
-/
import proofs.«129378_j20761871909702_1_alg».proof.Proof.Gen.KernelIdeal.Frame
import proofs.«129378_j20761871909702_1_alg».proof.ReferenceIdeal
import proofs.«129378_j20761871909702_1_alg».proof.Proof.Gen.ReferenceIdeal
import proofs.«129378_j20761871909702_1_alg».proof.Proof.LibMlpRows
import Idealize.ShloMosaic.Lib.Pipeline.Value

set_option maxRecDepth 16384

noncomputable section

namespace Cert.KernelIdeal.Encoder

open Cert.KernelIdeal Cert.KernelIdeal.Gen
open Idealize.ShloMosaic Idealize.ShloMosaic.TcCoe Idealize.ShloMosaic.ValueIdx Idealize.SL.Sem
open Idealize.ShloMosaic.Pipeline (Dat)
open Cert.RowOps Cert.Dense Cert.Layers

variable (V : (c : Dev nD) → (b : Ref sig .tc) → Buf (Elt Ideal) ((c : Thread nD τ).loc b))

theorem hz : (![0, 0] : Fin 2 → Nat) = fun _ => 0 := funext fun a => by fin_cases a <;> rfl

theorem plain1 : IsPlain dot_S1024x768_S768x128_S1024x128_1_0_0_1_n_n := ⟨rfl, rfl, rfl, rfl, rfl, rfl⟩
theorem plain2 : IsPlain dot_S1024x128_S128x128_S1024x128_1_0_0_1_n_n := ⟨rfl, rfl, rfl, rfl, rfl, rfl⟩
theorem plain1R : IsPlain Cert.ReferenceIdeal.dot_S1024x768_S768x128_S1024x128_1_0_0_1_n_n := ⟨rfl, rfl, rfl, rfl, rfl, rfl⟩
theorem plain2R : IsPlain Cert.ReferenceIdeal.dot_S1024x128_S128x128_S1024x128_1_0_0_1_n_n := ⟨rfl, rfl, rfl, rfl, rfl, rfl⟩

/-- The region's whole-array form: the host's two products, its broadcasts of the two bias rows over the rows, and its
    maximum with the broadcast zero. -/
def whole (x : FVec Ideal S1024x768 .f32) (w1 : FVec Ideal S768x128 .f32) (b1 : FVec Ideal S1x128 .f32)
    (w2 : FVec Ideal S128x128 .f32) (b2 : FVec Ideal S1x128 .f32) : FVec Ideal S1024x128 .f32 :=
  addf (Host.dotGeneral Cert.ReferenceIdeal.dot_S1024x128_S128x128_S1024x128_1_0_0_1_n_n none
      (maximumf (addf (Host.dotGeneral Cert.ReferenceIdeal.dot_S1024x768_S768x128_S1024x128_1_0_0_1_n_n none x w1)
          (broadcastInDim Cert.ReferenceIdeal.S1024x128 ![0, 1] Cert.ReferenceIdeal.Facts₀.bcast_S1x128_S1024x128_0_1 b1))
        (broadcastInDim Cert.ReferenceIdeal.S1024x128 ![] Cert.ReferenceIdeal.Facts₀.bcast_S_S1024x128 (constant (F := Ideal) Cert.ReferenceIdeal.S_ .f32 0x00000000#32))) w2)
    (broadcastInDim Cert.ReferenceIdeal.S1024x128 ![0, 1] Cert.ReferenceIdeal.Facts₀.bcast_S1x128_S1024x128_0_1 b2)

/-- The grid is one point, and every window's block there starts at the origin. -/
theorem idx_facts : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

/-- The one point's block of window 0 is the whole array. -/
theorem blk0 (c : Dev nD) (t : Fin cfg0.N) : (iblk0 V c 0 t : Vec Ideal S1024x768 .f32) = V c main_arg0 := by
  obtain ⟨e00, e01, -, -, -, -, -, -, -, -, -, -⟩ := idx_facts t
  funext j
  unfold iblk0
  rw [View.read_apply]
  show V c main_arg0 _ = V c main_arg0 j
  refine congrArg (V c main_arg0) (funext fun a => Fin.ext (by
    match a with
    | ⟨0, _⟩ => show win0_0.index t 0 * 1024 + 1 * (j 0).val = (j 0).val; rw [e00]; omega
    | ⟨1, _⟩ => show win0_0.index t 1 * 768 + 1 * (j 1).val = (j 1).val; rw [e01]; omega))

/-- The one point's block of window 1 is the whole array. -/
theorem blk1 (c : Dev nD) (t : Fin cfg0.N) : (iblk0 V c 1 t : Vec Ideal S768x128 .f32) = V c main_arg4 := by
  obtain ⟨-, -, e10, e11, -, -, -, -, -, -, -, -⟩ := idx_facts t
  funext j
  unfold iblk0
  rw [View.read_apply]
  show V c main_arg4 _ = V c main_arg4 j
  refine congrArg (V c main_arg4) (funext fun a => Fin.ext (by
    match a with
    | ⟨0, _⟩ => show win0_1.index t 0 * 768 + 1 * (j 0).val = (j 0).val; rw [e10]; omega
    | ⟨1, _⟩ => show win0_1.index t 1 * 128 + 1 * (j 1).val = (j 1).val; rw [e11]; omega))

/-- The one point's block of window 2 is the whole array. -/
theorem blk2 (c : Dev nD) (t : Fin cfg0.N) : (iblk0 V c 2 t : Vec Ideal S1x128 .f32) = V c main_v0 := by
  obtain ⟨-, -, -, -, e20, e21, -, -, -, -, -, -⟩ := idx_facts t
  funext j
  unfold iblk0
  rw [View.read_apply]
  show V c main_v0 _ = V c main_v0 j
  refine congrArg (V c main_v0) (funext fun a => Fin.ext (by
    match a with
    | ⟨0, _⟩ => show win0_2.index t 0 * 1 + 1 * (j 0).val = (j 0).val; rw [e20]; omega
    | ⟨1, _⟩ => show win0_2.index t 1 * 128 + 1 * (j 1).val = (j 1).val; rw [e21]; omega))

/-- The one point's block of window 3 is the whole array. -/
theorem blk3 (c : Dev nD) (t : Fin cfg0.N) : (iblk0 V c 3 t : Vec Ideal S128x128 .f32) = V c main_arg6 := by
  obtain ⟨-, -, -, -, -, -, e30, e31, -, -, -, -⟩ := idx_facts t
  funext j
  unfold iblk0
  rw [View.read_apply]
  show V c main_arg6 _ = V c main_arg6 j
  refine congrArg (V c main_arg6) (funext fun a => Fin.ext (by
    match a with
    | ⟨0, _⟩ => show win0_3.index t 0 * 128 + 1 * (j 0).val = (j 0).val; rw [e30]; omega
    | ⟨1, _⟩ => show win0_3.index t 1 * 128 + 1 * (j 1).val = (j 1).val; rw [e31]; omega))

/-- The one point's block of window 4 is the whole array. -/
theorem blk4 (c : Dev nD) (t : Fin cfg0.N) : (iblk0 V c 4 t : Vec Ideal S1x128 .f32) = V c main_v1 := by
  obtain ⟨-, -, -, -, -, -, -, -, e40, e41, -, -⟩ := idx_facts t
  funext j
  unfold iblk0
  rw [View.read_apply]
  show V c main_v1 _ = V c main_v1 j
  refine congrArg (V c main_v1) (funext fun a => Fin.ext (by
    match a with
    | ⟨0, _⟩ => show win0_4.index t 0 * 1 + 1 * (j 0).val = (j 0).val; rw [e40]; omega
    | ⟨1, _⟩ => show win0_4.index t 1 * 128 + 1 * (j 1).val = (j 1).val; rw [e41]; omega))

/-- The block form and the whole-array form of the perceptron read the same expression at every index. -/
theorem pay_eq (x0 : Vec Ideal S1024x768 .f32) (x1 : Vec Ideal S768x128 .f32) (x2 : Vec Ideal S1x128 .f32)
    (x3 : Vec Ideal S128x128 .f32) (x4 : Vec Ideal S1x128 .f32) : k0_pay1 x0 x1 x2 x3 x4 = whole x0 x1 x2 x3 x4 := by
  funext j
  obtain ⟨p, q, rfl⟩ : ∃ (p : Fin 1024) (q : Fin 128), j = ix2 p q := ⟨j 0, j 1, eq_ix2 j⟩
  unfold k0_pay1 whole
  exact (blockMlp_apply plain1 plain2 x0 x1 x2 x3 x4 _ _ _ _ _ p q).trans
    (hostMlp_apply plain1R plain2R x0 x1 x2 x3 x4 _ _ _ p q).symm

/-- What the one point writes back is the whole-array form of the region's input arrays. -/
theorem flushed_eq (c : Dev nD) (t : Fin cfg0.N) :
    (dat0 V c).flushed 5 t = ((cfg0.win 5).blk t).view.read (Elt Ideal)
      (whole (V c main_arg0) (V c main_arg4) (V c main_v0) (V c main_arg6) (V c main_v1)) := by
  obtain ⟨-, -, -, -, -, -, -, -, -, -, e50, e51⟩ := idx_facts t
  show (cfg0.win 5).cut (grid0.coords t) ((dat0 V c).after 5 t) = _
  rw [after0_5 V c t]
  unfold out0_5
  rw [View.canon_unit_zero hz]
  simp only [View.ld_unit_zero (S := S1024x768) hz, View.ld_unit_zero (S := S768x128) hz, View.ld_unit_zero (S := S1x128) hz, View.ld_unit_zero (S := S128x128) hz]
  rw [blk0 V c t, blk1 V c t, blk2 V c t, blk3 V c t, blk4 V c t, pay_eq]
  funext j
  rw [View.read_apply]
  refine congrArg (whole (V c main_arg0) (V c main_arg4) (V c main_v0) (V c main_arg6) (V c main_v1))
    (funext fun a => Fin.ext (by
      match a with
      | ⟨0, _⟩ => show (j 0).val = win0_5.index t 0 * 1024 + 1 * (j 0).val; rw [e50]; omega
      | ⟨1, _⟩ => show (j 1).val = win0_5.index t 1 * 128 + 1 * (j 1).val; rw [e51]; omega))

/-- An index of the output array is in the point's block iff each coordinate is in the block's range on its axis. -/
theorem mem_blk (t : Fin cfg0.N) (i : S1024x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v2).slice (win0_5.rect t)).set ↔ _
  rw [View.set_slice_whole, Rect.mem_set_unit]
  exact Iff.rfl

/-- The one block is the whole output array, so it ends at the whole-array form. -/
theorem final (c : Dev nD) : (dat0 V c).arrAt 5 cfg0.N
    = whole (V c main_arg0) (V c main_arg4) (V c main_v0) (V c main_arg6) (V c main_v1) :=
  (dat0 V c).arrAt_eq_of_cover 5 _ (fun t _ => flushed_eq V c t) fun i => by
    have h0 : (i 0).val < 1024 := (i 0).isLt
    have h1 : (i 1).val < 128 := (i 1).isLt
    obtain ⟨-, -, -, -, -, -, -, -, -, -, e50, e51⟩ := idx_facts t0_0
    refine ⟨t0_0, flush0_5 t0_0, ?_⟩
    rw [mem_blk]
    intro a
    match a with
    | ⟨0, _⟩ =>
      show win0_5.index t0_0 0 * 1024 ≤ (i 0).val ∧ (i 0).val < win0_5.index t0_0 0 * 1024 + 1024
      rw [e50]; omega
    | ⟨1, _⟩ =>
      show win0_5.index t0_0 1 * 128 ≤ (i 1).val ∧ (i 1).val < win0_5.index t0_0 1 * 128 + 128
      rw [e51]; omega

end Cert.KernelIdeal.Encoder

end
-- ==== Proof.Conv1.lean ====
/-
  The first graph layer's dense half: the node features times the weight.

  The region multiplies the [50000, 128] node-feature array by a [128, 128] weight in ten blocks of 5000 rows, each block a
  product into a zero accumulator of the block's rows with the whole weight.  A row of a product depends on that row of the
  left operand only, so block t of the whole-array product is the product of block t: every grid point writes back its block
  of the host-form product of the region's two input arrays, the ten blocks tile the output, and the output array ends at
  that product.
-/
import proofs.«129378_j20761871909702_1_alg».proof.Proof.Gen.KernelIdeal.Frame
import proofs.«129378_j20761871909702_1_alg».proof.ReferenceIdeal
import proofs.«129378_j20761871909702_1_alg».proof.Proof.Gen.ReferenceIdeal
import proofs.«129378_j20761871909702_1_alg».proof.Proof.LibMlpRows
import Idealize.ShloMosaic.Lib.Pipeline.Value

set_option maxRecDepth 16384

noncomputable section

namespace Cert.KernelIdeal.Conv1

open Cert.KernelIdeal Cert.KernelIdeal.Gen
open Idealize.ShloMosaic Idealize.ShloMosaic.TcCoe Idealize.ShloMosaic.ValueIdx Idealize.SL.Sem
open Idealize.ShloMosaic.Pipeline (Dat)
open Cert.RowOps Cert.Dense Cert.Layers

variable (V : (c : Dev nD) → (b : Ref sig .tc) → Buf (Elt Ideal) ((c : Thread nD τ).loc b))

theorem hz : (![0, 0] : Fin 2 → Nat) = fun _ => 0 := funext fun a => by fin_cases a <;> rfl

theorem plainTile : IsPlain dot_S5000x128_S128x128_S5000x128_1_0_0_1_n_n := ⟨rfl, rfl, rfl, rfl, rfl, rfl⟩
theorem plainWhole : IsPlain Cert.ReferenceIdeal.dot_S50000x128_S128x128_S50000x128_1_0_0_1_n_n := ⟨rfl, rfl, rfl, rfl, rfl, rfl⟩

/-- The region's whole-array form: the host's product of the node features with the weight. -/
def whole (x : FVec Ideal S50000x128 .f32) (w : FVec Ideal S128x128 .f32) : FVec Ideal S50000x128 .f32 :=
  Host.dotGeneral Cert.ReferenceIdeal.dot_S50000x128_S128x128_S50000x128_1_0_0_1_n_n none x w

/-- Grid point t fetches and writes back rows 5000·t … 5000·t + 4999, and fetches the whole weight. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := by
  exact lt_of_lt_of_eq t.isLt N_1

/-- Row p of point t's input block is row 5000·t + p of the input array. -/
theorem rows_apply (c : Dev nD) (t : Fin cfg1.N) (p : Fin 5000) (k : Fin 128) :
    (iblk1 V c 0 t : Vec Ideal S5000x128 .f32) (ix2 p k)
      = (V c main_arg1 : S50000x128.Idx → EReal) (ix2 ⟨t.val * 5000 + p.val, by have := point_lt t; have := p.isLt; omega⟩ k) := by
  obtain ⟨e0, e1, -⟩ := idx_facts t
  unfold iblk1
  rw [View.read_apply]
  show V c main_arg1 _ = V c main_arg1 _
  refine congrArg (V c main_arg1) (funext fun a => Fin.ext (by
    match a with
    | ⟨0, _⟩ => show win1_0.index t 0 * 5000 + 1 * p.val = t.val * 5000 + p.val; rw [e0]; omega
    | ⟨1, _⟩ => show win1_0.index t 1 * 128 + 1 * k.val = k.val; rw [e1]; omega))

/-- Every point's weight block is the weight array. -/
theorem weight_eq (c : Dev nD) (t : Fin cfg1.N) : (iblk1 V c 1 t : Vec Ideal S128x128 .f32) = V c main_arg8 := by
  obtain ⟨-, -, e2, e3, -⟩ := idx_facts t
  funext j
  unfold iblk1
  rw [View.read_apply]
  show V c main_arg8 _ = V c main_arg8 j
  refine congrArg (V c main_arg8) (funext fun a => Fin.ext (by
    match a with
    | ⟨0, _⟩ => show win1_1.index t 0 * 128 + 1 * (j 0).val = (j 0).val; rw [e2]; omega
    | ⟨1, _⟩ => show win1_1.index t 1 * 128 + 1 * (j 1).val = (j 1).val; rw [e3]; omega))

/-- A block of rows that is rows 5000·b … of X gives, at (p, q), the whole-array form of X at (5000·b + p, q): both are
    the same sum over the shared axis. -/
theorem tile_at (x0 : Vec Ideal S5000x128 .f32) (x1 : Vec Ideal S128x128 .f32) (X : FVec Ideal S50000x128 .f32)
    (b : Nat) (hb : b < 10)
    (hx : ∀ (p : Fin 5000) (k : Fin 128), x0 (ix2 p k) = X (ix2 ⟨b * 5000 + p.val, by have := p.isLt; omega⟩ k))
    (p : Fin 5000) (q : Fin 128) :
    k1_pay1 x0 x1 (ix2 p q) = whole X x1 (ix2 ⟨b * 5000 + p.val, by have := p.isLt; omega⟩ q) := by
  unfold k1_pay1 whole
  refine (blockProduct_apply plainTile x0 x1 _ p q).trans ?_
  refine Eq.trans ?_ (hostDot_apply plainWhole none .single X x1 _ q).symm
  exact Finset.sum_congr rfl fun k _ => by rw [hx]

/-- What point t writes back is block t of the whole-array form of the region's input arrays. -/
theorem flushed_eq (c : Dev nD) (t : Fin cfg1.N) :
    (dat1 V c).flushed 2 t = ((cfg1.win 2).blk t).view.read (Elt Ideal) (whole (V c main_arg1) (V c main_arg8)) := by
  obtain ⟨-, -, -, -, e4, e5⟩ := idx_facts t
  show (cfg1.win 2).cut (grid1.coords t) ((dat1 V c).after 2 t) = _
  rw [after1_2 V c t]
  unfold out1_2
  rw [View.canon_unit_zero hz]
  simp only [View.ld_unit_zero (S := S5000x128) hz, View.ld_unit_zero (S := S128x128) hz]
  rw [weight_eq V c t]
  funext j
  obtain ⟨p, q, rfl⟩ : ∃ (p : Fin 5000) (q : Fin 128), j = ix2 p q := ⟨j 0, j 1, eq_ix2 j⟩
  refine (tile_at (iblk1 V c 0 t) (V c main_arg8) (V c main_arg1) t.val (point_lt t) (fun p k => rows_apply V c t p k) p q).trans ?_
  rw [View.read_apply]
  refine congrArg (whole (V c main_arg1) (V c main_arg8)) (funext fun a => Fin.ext (by
    match a with
    | ⟨0, _⟩ => show t.val * 5000 + p.val = win1_2.index t 0 * 5000 + 1 * p.val; rw [e4]; omega
    | ⟨1, _⟩ => show q.val = win1_2.index t 1 * 128 + 1 * q.val; rw [e5]; omega))

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v34).slice (win1_2.rect t)).set ↔ _
  rw [View.set_slice_whole, Rect.mem_set_unit]
  exact Iff.rfl

/-- The ten blocks tile the output array (row r is in point r / 5000's block), so it ends at the whole-array form. -/
theorem final (c : Dev nD) : (dat1 V c).arrAt 2 cfg1.N = whole (V c main_arg1) (V c main_arg8) :=
  (dat1 V c).arrAt_eq_of_cover 2 _ (fun t _ => flushed_eq V c t) fun i => by
    have h0 : (i 0).val < 50000 := (i 0).isLt
    have h1 : (i 1).val < 128 := (i 1).isLt
    obtain ⟨t, ht⟩ : ∃ t : Fin cfg1.N, t.val = (i 0).val / 5000 :=
      ⟨⟨(i 0).val / 5000, lt_of_lt_of_eq (by omega : (i 0).val / 5000 < 10) N_1.symm⟩, rfl⟩
    obtain ⟨-, -, -, -, e4, e5⟩ := idx_facts t
    refine ⟨t, flush1_2 t, ?_⟩
    rw [mem_blk]
    intro a
    match a with
    | ⟨0, _⟩ =>
      show win1_2.index t 0 * 5000 ≤ (i 0).val ∧ (i 0).val < win1_2.index t 0 * 5000 + 5000
      rw [e4, ht]; omega
    | ⟨1, _⟩ =>
      show win1_2.index t 1 * 128 ≤ (i 1).val ∧ (i 1).val < win1_2.index t 1 * 128 + 128
      rw [e5]; omega

end Cert.KernelIdeal.Conv1

end
-- ==== Proof.Conv2.lean ====
/-
  The second graph layer's dense half: the first layer's output clipped at zero, times the weight.

  The region clips each block of 5000 rows of its [50000, 128] input at zero and multiplies it by the whole [128, 128]
  weight into a zero accumulator.  Clipping acts entry by entry and a row of a product depends on that row of the left
  operand only, so block t of the whole-array form — the host's product of the clipped array with the weight — is the
  block form of block t: the ten blocks tile the output, and the output array ends at the whole-array form.
-/
import proofs.«129378_j20761871909702_1_alg».proof.Proof.Gen.KernelIdeal.Frame
import proofs.«129378_j20761871909702_1_alg».proof.ReferenceIdeal
import proofs.«129378_j20761871909702_1_alg».proof.Proof.Gen.ReferenceIdeal
import proofs.«129378_j20761871909702_1_alg».proof.Proof.LibMlpRows
import Idealize.ShloMosaic.Lib.Pipeline.Value

set_option maxRecDepth 16384

noncomputable section

namespace Cert.KernelIdeal.Conv2

open Cert.KernelIdeal Cert.KernelIdeal.Gen
open Idealize.ShloMosaic Idealize.ShloMosaic.TcCoe Idealize.ShloMosaic.ValueIdx Idealize.SL.Sem
open Idealize.ShloMosaic.Pipeline (Dat)
open Cert.RowOps Cert.Dense Cert.Layers

variable (V : (c : Dev nD) → (b : Ref sig .tc) → Buf (Elt Ideal) ((c : Thread nD τ).loc b))

theorem hz : (![0, 0] : Fin 2 → Nat) = fun _ => 0 := funext fun a => by fin_cases a <;> rfl

theorem plainTile : IsPlain dot_S5000x128_S128x128_S5000x128_1_0_0_1_n_n := ⟨rfl, rfl, rfl, rfl, rfl, rfl⟩
theorem plainWhole : IsPlain Cert.ReferenceIdeal.dot_S50000x128_S128x128_S50000x128_1_0_0_1_n_n := ⟨rfl, rfl, rfl, rfl, rfl, rfl⟩

/-- The region's whole-array form: the host's product of the input clipped at zero with the weight. -/
def whole (x : FVec Ideal S50000x128 .f32) (w : FVec Ideal S128x128 .f32) : FVec Ideal S50000x128 .f32 :=
  Host.dotGeneral Cert.ReferenceIdeal.dot_S50000x128_S128x128_S50000x128_1_0_0_1_n_n none
    (maximumf x (broadcastInDim Cert.ReferenceIdeal.S50000x128 ![] Cert.ReferenceIdeal.Facts₀.bcast_S_S50000x128
      (constant (F := Ideal) Cert.ReferenceIdeal.S_ .f32 0x00000000#32))) w

/-- Grid point t fetches and writes back rows 5000·t … 5000·t + 4999, and fetches the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 10 := by
  exact lt_of_lt_of_eq t.isLt N_2

/-- Row p of point t's input block is row 5000·t + p of the input array. -/
theorem rows_apply (c : Dev nD) (t : Fin cfg2.N) (p : Fin 5000) (k : Fin 128) :
    (iblk2 V c 0 t : Vec Ideal S5000x128 .f32) (ix2 p k)
      = (V c main_v49 : S50000x128.Idx → EReal) (ix2 ⟨t.val * 5000 + p.val, by have := point_lt t; have := p.isLt; omega⟩ k) := by
  obtain ⟨e0, e1, -⟩ := idx_facts t
  unfold iblk2
  rw [View.read_apply]
  show V c main_v49 _ = V c main_v49 _
  refine congrArg (V c main_v49) (funext fun a => Fin.ext (by
    match a with
    | ⟨0, _⟩ => show win2_0.index t 0 * 5000 + 1 * p.val = t.val * 5000 + p.val; rw [e0]; omega
    | ⟨1, _⟩ => show win2_0.index t 1 * 128 + 1 * k.val = k.val; rw [e1]; omega))

/-- Every point's weight block is the weight array. -/
theorem weight_eq (c : Dev nD) (t : Fin cfg2.N) : (iblk2 V c 1 t : Vec Ideal S128x128 .f32) = V c main_arg10 := by
  obtain ⟨-, -, e2, e3, -⟩ := idx_facts t
  funext j
  unfold iblk2
  rw [View.read_apply]
  show V c main_arg10 _ = V c main_arg10 j
  refine congrArg (V c main_arg10) (funext fun a => Fin.ext (by
    match a with
    | ⟨0, _⟩ => show win2_1.index t 0 * 128 + 1 * (j 0).val = (j 0).val; rw [e2]; omega
    | ⟨1, _⟩ => show win2_1.index t 1 * 128 + 1 * (j 1).val = (j 1).val; rw [e3]; omega))

/-- A block of rows that is rows 5000·b … of X gives, at (p, q), the whole-array form of X at (5000·b + p, q): both are
    the same sum over the shared axis. -/
theorem tile_at (x0 : Vec Ideal S5000x128 .f32) (x1 : Vec Ideal S128x128 .f32) (X : FVec Ideal S50000x128 .f32)
    (b : Nat) (hb : b < 10)
    (hx : ∀ (p : Fin 5000) (k : Fin 128), x0 (ix2 p k) = X (ix2 ⟨b * 5000 + p.val, by have := p.isLt; omega⟩ k))
    (p : Fin 5000) (q : Fin 128) :
    k2_pay1 x0 x1 (ix2 p q) = whole X x1 (ix2 ⟨b * 5000 + p.val, by have := p.isLt; omega⟩ q) := by
  unfold k2_pay1 whole
  refine (blockClipProduct_apply plainTile x0 x1 _ _ p q).trans ?_
  refine Eq.trans ?_ (hostClipProduct_apply plainWhole X x1 _ _ q).symm
  exact Finset.sum_congr rfl fun k _ => by rw [hx]

/-- What point t writes back is block t of the whole-array form of the region's input arrays. -/
theorem flushed_eq (c : Dev nD) (t : Fin cfg2.N) :
    (dat2 V c).flushed 2 t = ((cfg2.win 2).blk t).view.read (Elt Ideal) (whole (V c main_v49) (V c main_arg10)) := by
  obtain ⟨-, -, -, -, e4, e5⟩ := idx_facts t
  show (cfg2.win 2).cut (grid2.coords t) ((dat2 V c).after 2 t) = _
  rw [after2_2 V c t]
  unfold out2_2
  rw [View.canon_unit_zero hz]
  simp only [View.ld_unit_zero (S := S5000x128) hz, View.ld_unit_zero (S := S128x128) hz]
  rw [weight_eq V c t]
  funext j
  obtain ⟨p, q, rfl⟩ : ∃ (p : Fin 5000) (q : Fin 128), j = ix2 p q := ⟨j 0, j 1, eq_ix2 j⟩
  refine (tile_at (iblk2 V c 0 t) (V c main_arg10) (V c main_v49) t.val (point_lt t) (fun p k => rows_apply V c t p k) p q).trans ?_
  rw [View.read_apply]
  refine congrArg (whole (V c main_v49) (V c main_arg10)) (funext fun a => Fin.ext (by
    match a with
    | ⟨0, _⟩ => show t.val * 5000 + p.val = win2_2.index t 0 * 5000 + 1 * p.val; rw [e4]; omega
    | ⟨1, _⟩ => show q.val = win2_2.index t 1 * 128 + 1 * q.val; rw [e5]; omega))

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v50).slice (win2_2.rect t)).set ↔ _
  rw [View.set_slice_whole, Rect.mem_set_unit]
  exact Iff.rfl

/-- The ten blocks tile the output array (row r is in point r / 5000's block), so it ends at the whole-array form. -/
theorem final (c : Dev nD) : (dat2 V c).arrAt 2 cfg2.N = whole (V c main_v49) (V c main_arg10) :=
  (dat2 V c).arrAt_eq_of_cover 2 _ (fun t _ => flushed_eq V c t) fun i => by
    have h0 : (i 0).val < 50000 := (i 0).isLt
    have h1 : (i 1).val < 128 := (i 1).isLt
    obtain ⟨t, ht⟩ : ∃ t : Fin cfg2.N, t.val = (i 0).val / 5000 :=
      ⟨⟨(i 0).val / 5000, lt_of_lt_of_eq (by omega : (i 0).val / 5000 < 10) N_2.symm⟩, rfl⟩
    obtain ⟨-, -, -, -, e4, e5⟩ := idx_facts t
    refine ⟨t, flush2_2 t, ?_⟩
    rw [mem_blk]
    intro a
    match a with
    | ⟨0, _⟩ =>
      show win2_2.index t 0 * 5000 ≤ (i 0).val ∧ (i 0).val < win2_2.index t 0 * 5000 + 5000
      rw [e4, ht]; omega
    | ⟨1, _⟩ =>
      show win2_2.index t 1 * 128 ≤ (i 1).val ∧ (i 1).val < win2_2.index t 1 * 128 + 128
      rw [e5]; omega

end Cert.KernelIdeal.Conv2

end
-- ==== Proof.Head.lean ====
/-
  The fusion head: a two-layer perceptron over the [1024, 256] joined features, to 12 classes.

  The region is one grid point whose blocks are the whole arrays: it reads the joined features, a [256, 128] and a
  [128, 12] weight and the two biases (a [1, 128] and a [1, 12] row), and stores  max(x·W₁ + b₁, 0)·W₂ + b₂ .  Read at an
  index the block form and the host's whole-array form of this perceptron are one expression, so the output array ends at
  the whole-array form of the region's five input arrays.
-/
import proofs.«129378_j20761871909702_1_alg».proof.Proof.Gen.KernelIdeal.Frame
import proofs.«129378_j20761871909702_1_alg».proof.ReferenceIdeal
import proofs.«129378_j20761871909702_1_alg».proof.Proof.Gen.ReferenceIdeal
import proofs.«129378_j20761871909702_1_alg».proof.Proof.LibMlpRows
import Idealize.ShloMosaic.Lib.Pipeline.Value

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat)
open Cert.RowOps Cert.Dense Cert.Layers

variable (V : (c : Dev nD) → (b : Ref sig .tc) → Buf (Elt Ideal) ((c : Thread nD τ).loc b))

theorem hz : (![0, 0] : Fin 2 → Nat) = fun _ => 0 := funext fun a => by fin_cases a <;> rfl

theorem plain1 : IsPlain dot_S1024x256_S256x128_S1024x128_1_0_0_1_n_n := ⟨rfl, rfl, rfl, rfl, rfl, rfl⟩
theorem plain2 : IsPlain dot_S1024x128_S128x12_S1024x12_1_0_0_1_n_n := ⟨rfl, rfl, rfl, rfl, rfl, rfl⟩
theorem plain1R : IsPlain Cert.ReferenceIdeal.dot_S1024x256_S256x128_S1024x128_1_0_0_1_n_n := ⟨rfl, rfl, rfl, rfl, rfl, rfl⟩
theorem plain2R : IsPlain Cert.ReferenceIdeal.dot_S1024x128_S128x12_S1024x12_1_0_0_1_n_n := ⟨rfl, rfl, rfl, rfl, rfl, rfl⟩

/-- The region's whole-array form: the host's two products, its broadcasts of the two bias rows over the rows, and its
    maximum with the broadcast zero. -/
def whole (x : FVec Ideal S1024x256 .f32) (w1 : FVec Ideal S256x128 .f32) (b1 : FVec Ideal S1x128 .f32)
    (w2 : FVec Ideal S128x12 .f32) (b2 : FVec Ideal S1x12 .f32) : FVec Ideal S1024x12 .f32 :=
  addf (Host.dotGeneral Cert.ReferenceIdeal.dot_S1024x128_S128x12_S1024x12_1_0_0_1_n_n none
      (maximumf (addf (Host.dotGeneral Cert.ReferenceIdeal.dot_S1024x256_S256x128_S1024x128_1_0_0_1_n_n none x w1)
          (broadcastInDim Cert.ReferenceIdeal.S1024x128 ![0, 1] Cert.ReferenceIdeal.Facts₀.bcast_S1x128_S1024x128_0_1 b1))
        (broadcastInDim Cert.ReferenceIdeal.S1024x128 ![] Cert.ReferenceIdeal.Facts₀.bcast_S_S1024x128 (constant (F := Ideal) Cert.ReferenceIdeal.S_ .f32 0x00000000#32))) w2)
    (broadcastInDim Cert.ReferenceIdeal.S1024x12 ![0, 1] Cert.ReferenceIdeal.Facts₀.bcast_S1x12_S1024x12_0_1 b2)

/-- The grid is one point, and every window's block there starts at the origin. -/
theorem idx_facts : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

/-- The one point's block of window 0 is the whole array. -/
theorem blk0 (c : Dev nD) (t : Fin cfg3.N) : (iblk3 V c 0 t : Vec Ideal S1024x256 .f32) = V c main_v79 := by
  obtain ⟨e00, e01, -, -, -, -, -, -, -, -, -, -⟩ := idx_facts t
  funext j
  unfold iblk3
  rw [View.read_apply]
  show V c main_v79 _ = V c main_v79 j
  refine congrArg (V c main_v79) (funext fun a => Fin.ext (by
    match a with
    | ⟨0, _⟩ => show win3_0.index t 0 * 1024 + 1 * (j 0).val = (j 0).val; rw [e00]; omega
    | ⟨1, _⟩ => show win3_0.index t 1 * 256 + 1 * (j 1).val = (j 1).val; rw [e01]; omega))

/-- The one point's block of window 1 is the whole array. -/
theorem blk1 (c : Dev nD) (t : Fin cfg3.N) : (iblk3 V c 1 t : Vec Ideal S256x128 .f32) = V c main_arg12 := by
  obtain ⟨-, -, e10, e11, -, -, -, -, -, -, -, -⟩ := idx_facts t
  funext j
  unfold iblk3
  rw [View.read_apply]
  show V c main_arg12 _ = V c main_arg12 j
  refine congrArg (V c main_arg12) (funext fun a => Fin.ext (by
    match a with
    | ⟨0, _⟩ => show win3_1.index t 0 * 256 + 1 * (j 0).val = (j 0).val; rw [e10]; omega
    | ⟨1, _⟩ => show win3_1.index t 1 * 128 + 1 * (j 1).val = (j 1).val; rw [e11]; omega))

/-- The one point's block of window 2 is the whole array. -/
theorem blk2 (c : Dev nD) (t : Fin cfg3.N) : (iblk3 V c 2 t : Vec Ideal S1x128 .f32) = V c main_v80 := by
  obtain ⟨-, -, -, -, e20, e21, -, -, -, -, -, -⟩ := idx_facts t
  funext j
  unfold iblk3
  rw [View.read_apply]
  show V c main_v80 _ = V c main_v80 j
  refine congrArg (V c main_v80) (funext fun a => Fin.ext (by
    match a with
    | ⟨0, _⟩ => show win3_2.index t 0 * 1 + 1 * (j 0).val = (j 0).val; rw [e20]; omega
    | ⟨1, _⟩ => show win3_2.index t 1 * 128 + 1 * (j 1).val = (j 1).val; rw [e21]; omega))

/-- The one point's block of window 3 is the whole array. -/
theorem blk3 (c : Dev nD) (t : Fin cfg3.N) : (iblk3 V c 3 t : Vec Ideal S128x12 .f32) = V c main_arg14 := by
  obtain ⟨-, -, -, -, -, -, e30, e31, -, -, -, -⟩ := idx_facts t
  funext j
  unfold iblk3
  rw [View.read_apply]
  show V c main_arg14 _ = V c main_arg14 j
  refine congrArg (V c main_arg14) (funext fun a => Fin.ext (by
    match a with
    | ⟨0, _⟩ => show win3_3.index t 0 * 128 + 1 * (j 0).val = (j 0).val; rw [e30]; omega
    | ⟨1, _⟩ => show win3_3.index t 1 * 12 + 1 * (j 1).val = (j 1).val; rw [e31]; omega))

/-- The one point's block of window 4 is the whole array. -/
theorem blk4 (c : Dev nD) (t : Fin cfg3.N) : (iblk3 V c 4 t : Vec Ideal S1x12 .f32) = V c main_v81 := by
  obtain ⟨-, -, -, -, -, -, -, -, e40, e41, -, -⟩ := idx_facts t
  funext j
  unfold iblk3
  rw [View.read_apply]
  show V c main_v81 _ = V c main_v81 j
  refine congrArg (V c main_v81) (funext fun a => Fin.ext (by
    match a with
    | ⟨0, _⟩ => show win3_4.index t 0 * 1 + 1 * (j 0).val = (j 0).val; rw [e40]; omega
    | ⟨1, _⟩ => show win3_4.index t 1 * 12 + 1 * (j 1).val = (j 1).val; rw [e41]; omega))

/-- The block form and the whole-array form of the perceptron read the same expression at every index. -/
theorem pay_eq (x0 : Vec Ideal S1024x256 .f32) (x1 : Vec Ideal S256x128 .f32) (x2 : Vec Ideal S1x128 .f32)
    (x3 : Vec Ideal S128x12 .f32) (x4 : Vec Ideal S1x12 .f32) : k3_pay1 x0 x1 x2 x3 x4 = whole x0 x1 x2 x3 x4 := by
  funext j
  obtain ⟨p, q, rfl⟩ : ∃ (p : Fin 1024) (q : Fin 12), j = ix2 p q := ⟨j 0, j 1, eq_ix2 j⟩
  unfold k3_pay1 whole
  rw [shapeCast_self (s := S1024x256)]
  exact (blockMlp_apply plain1 plain2 x0 x1 x2 x3 x4 _ _ _ _ _ p q).trans
    (hostMlp_apply plain1R plain2R x0 x1 x2 x3 x4 _ _ _ p q).symm

/-- What the one point writes back is the whole-array form of the region's input arrays. -/
theorem flushed_eq (c : Dev nD) (t : Fin cfg3.N) :
    (dat3 V c).flushed 5 t = ((cfg3.win 5).blk t).view.read (Elt Ideal)
      (whole (V c main_v79) (V c main_arg12) (V c main_v80) (V c main_arg14) (V c main_v81)) := by
  obtain ⟨-, -, -, -, -, -, -, -, -, -, e50, e51⟩ := idx_facts t
  show (cfg3.win 5).cut (grid3.coords t) ((dat3 V c).after 5 t) = _
  rw [after3_5 V c t]
  unfold out3_5
  rw [View.canon_unit_zero hz]
  simp only [View.ld_unit_zero (S := S1024x256) hz, View.ld_unit_zero (S := S256x128) hz, View.ld_unit_zero (S := S1x128) hz, View.ld_unit_zero (S := S128x12) hz, View.ld_unit_zero (S := S1x12) hz]
  rw [blk0 V c t, blk1 V c t, blk2 V c t, blk3 V c t, blk4 V c t, pay_eq]
  funext j
  rw [View.read_apply]
  refine congrArg (whole (V c main_v79) (V c main_arg12) (V c main_v80) (V c main_arg14) (V c main_v81))
    (funext fun a => Fin.ext (by
      match a with
      | ⟨0, _⟩ => show (j 0).val = win3_5.index t 0 * 1024 + 1 * (j 0).val; rw [e50]; omega
      | ⟨1, _⟩ => show (j 1).val = win3_5.index t 1 * 12 + 1 * (j 1).val; rw [e51]; omega))

/-- An index of the output array is in the point's block iff each coordinate is in the block's range on its axis. -/
theorem mem_blk (t : Fin cfg3.N) (i : S1024x12.Idx) :
    i ∈ ((cfg3.win 5).blk t).view.set ↔ ∀ a : Fin 2, win3_5.index t a * S1024x12.size a ≤ (i a).val
      ∧ (i a).val < win3_5.index t a * S1024x12.size a + S1024x12.size a := by
  show i ∈ ((View.whole main_v82).slice (win3_5.rect t)).set ↔ _
  rw [View.set_slice_whole, Rect.mem_set_unit]
  exact Iff.rfl

/-- The one block is the whole output array, so it ends at the whole-array form. -/
theorem final (c : Dev nD) : (dat3 V c).arrAt 5 cfg3.N
    = whole (V c main_v79) (V c main_arg12) (V c main_v80) (V c main_arg14) (V c main_v81) :=
  (dat3 V c).arrAt_eq_of_cover 5 _ (fun t _ => flushed_eq V c t) fun i => by
    have h0 : (i 0).val < 1024 := (i 0).isLt
    have h1 : (i 1).val < 12 := (i 1).isLt
    obtain ⟨-, -, -, -, -, -, -, -, -, -, e50, e51⟩ := idx_facts t3_0
    refine ⟨t3_0, flush3_5 t3_0, ?_⟩
    rw [mem_blk]
    intro a
    match a with
    | ⟨0, _⟩ =>
      show win3_5.index t3_0 0 * 1024 ≤ (i 0).val ∧ (i 0).val < win3_5.index t3_0 0 * 1024 + 1024
      rw [e50]; omega
    | ⟨1, _⟩ =>
      show win3_5.index t3_0 1 * 12 ≤ (i 1).val ∧ (i 1).val < win3_5.index t3_0 1 * 12 + 12
      rw [e51]; omega

end Cert.KernelIdeal.Head

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.WalkK.lean ====
/-
  The idealized kernel's result as one term of its sixteen argument arrays.

  The kernel's run leaves the result buffer at the last boundary's contents.  Walking the program backwards from there:
  a pipelined region leaves its output array at the whole-array form of its input arrays as the region found them (the
  encoder, the two graph products, the head) and every other buffer as it was; a host operation leaves its result buffer
  at its function of its operand buffers and every other buffer as it was.  The walk ends at the launch contents of the
  argument buffers and leaves the composed term of those sixteen arrays.
-/
import proofs.«129378_j20761871909702_1_alg».proof.Proof.Gen.KernelIdeal.Frame
import proofs.«129378_j20761871909702_1_alg».proof.Proof.Encoder
import proofs.«129378_j20761871909702_1_alg».proof.Proof.Conv1
import proofs.«129378_j20761871909702_1_alg».proof.Proof.Conv2
import proofs.«129378_j20761871909702_1_alg».proof.Proof.Head
import proofs.«129378_j20761871909702_1_alg».proof.Proof.LibLineEval

set_option maxRecDepth 16384
set_option pp.maxSteps 5000
set_option pp.deepTerms false

noncomputable section

namespace Cert.KernelIdeal.Fold

open Cert.KernelIdeal Cert.KernelIdeal.Gen
open Idealize.ShloMosaic Idealize.ShloMosaic.TcCoe Idealize.ShloMosaic.StableHlo Idealize.SL.Sem
open Cert.LineEval

variable (m : (ℓ : Loc nD τ sig) → Buf (Elt Ideal) ℓ) (ρ : Dev nD → PrngReg)

/-! ## A region's exit contents from its entry contents -/

theorem W2_out (c : Dev nD) : W2 m ρ c (no_index (Proc.devRef .tc main_v2))
    = Encoder.whole (W1 m ρ c (Proc.devRef .tc main_arg0)) (W1 m ρ c (Proc.devRef .tc main_arg4))
        (W1 m ρ c (Proc.devRef .tc main_v0)) (W1 m ρ c (Proc.devRef .tc main_arg6)) (W1 m ρ c (Proc.devRef .tc main_v1)) :=
  (W2_arr m ρ c 5).trans (Encoder.final (V1 m ρ) c)
theorem W2_ne (c : Dev nD) (b : Ref sig .tc) (hb : ∀ w, Pipeline.arrRef spec0 w ≠ b) :
    W2 m ρ c (no_index (Proc.devRef .tc b)) = W1 m ρ c (Proc.devRef .tc b) := W2_of_ne m ρ c b hb

theorem W6_out (c : Dev nD) : W6 m ρ c (no_index (Proc.devRef .tc main_v34))
    = Conv1.whole (W5 m ρ c (Proc.devRef .tc main_arg1)) (W5 m ρ c (Proc.devRef .tc main_arg8)) :=
  (W6_arr m ρ c 2).trans (Conv1.final (V5 m ρ) c)
theorem W6_ne (c : Dev nD) (b : Ref sig .tc) (hb : ∀ w, Pipeline.arrRef spec1 w ≠ b) :
    W6 m ρ c (no_index (Proc.devRef .tc b)) = W5 m ρ c (Proc.devRef .tc b) := W6_of_ne m ρ c b hb

theorem W8_out (c : Dev nD) : W8 m ρ c (no_index (Proc.devRef .tc main_v50))
    = Conv2.whole (W7 m ρ c (Proc.devRef .tc main_v49)) (W7 m ρ c (Proc.devRef .tc main_arg10)) :=
  (W8_arr m ρ c 2).trans (Conv2.final (V7 m ρ) c)
theorem W8_ne (c : Dev nD) (b : Ref sig .tc) (hb : ∀ w, Pipeline.arrRef spec2 w ≠ b) :
    W8 m ρ c (no_index (Proc.devRef .tc b)) = W7 m ρ c (Proc.devRef .tc b) := W8_of_ne m ρ c b hb

theorem W12_out (c : Dev nD) : W12 m ρ c (no_index (Proc.devRef .tc main_v82))
    = Head.whole (W11 m ρ c (Proc.devRef .tc main_v79)) (W11 m ρ c (Proc.devRef .tc main_arg12))
        (W11 m ρ c (Proc.devRef .tc main_v80)) (W11 m ρ c (Proc.devRef .tc main_arg14)) (W11 m ρ c (Proc.devRef .tc main_v81)) :=
  (W12_arr m ρ c 5).trans (Head.final (V11 m ρ) c)

/-! ## A typed reference's transports are the identity -/

theorem toBuf_main_cst_2 (v : (⟨S_, .f32⟩ : BufTy).Contents (Elt Ideal)) :
    (TRef.of (T := ⟨S_, .f32⟩) main_cst_2 : TRef sig ⟨S_, .f32⟩).toBuf v = v := rfl
theorem ofBuf_main_cst_2 (v : (⟨S_, .f32⟩ : BufTy).Contents (Elt Ideal)) :
    (TRef.of (T := ⟨S_, .f32⟩) main_cst_2 : TRef sig ⟨S_, .f32⟩).ofBuf v = v := rfl
theorem toBuf_main_call0_v0 (v : (⟨S_, .f32⟩ : BufTy).Contents (Elt Ideal)) :
    (TRef.of (T := ⟨S_, .f32⟩) main_call0_v0 : TRef sig ⟨S_, .f32⟩).toBuf v = v := rfl
theorem ofBuf_main_call0_v0 (v : (⟨S_, .f32⟩ : BufTy).Contents (Elt Ideal)) :
    (TRef.of (T := ⟨S_, .f32⟩) main_call0_v0 : TRef sig ⟨S_, .f32⟩).ofBuf v = v := rfl
theorem toBuf_main_call0_v1 (v : (⟨S50000, .f32⟩ : BufTy).Contents (Elt Ideal)) :
    (TRef.of (T := ⟨S50000, .f32⟩) main_call0_v1 : TRef sig ⟨S50000, .f32⟩).toBuf v = v := rfl
theorem ofBuf_main_call0_v1 (v : (⟨S50000, .f32⟩ : BufTy).Contents (Elt Ideal)) :
    (TRef.of (T := ⟨S50000, .f32⟩) main_call0_v1 : TRef sig ⟨S50000, .f32⟩).ofBuf v = v := rfl
theorem toBuf_main_v15 (v : (⟨S50000, .i1⟩ : BufTy).Contents (Elt Ideal)) :
    (TRef.of (T := ⟨S50000, .i1⟩) main_v15 : TRef sig ⟨S50000, .i1⟩).toBuf v = v := rfl
theorem ofBuf_main_v15 (v : (⟨S50000, .i1⟩ : BufTy).Contents (Elt Ideal)) :
    (TRef.of (T := ⟨S50000, .i1⟩) main_v15 : TRef sig ⟨S50000, .i1⟩).ofBuf v = v := rfl
theorem toBuf_main_v16 (v : (⟨S50000, .f32⟩ : BufTy).Contents (Elt Ideal)) :
    (TRef.of (T := ⟨S50000, .f32⟩) main_v16 : TRef sig ⟨S50000, .f32⟩).toBuf v = v := rfl
theorem ofBuf_main_v16 (v : (⟨S50000, .f32⟩ : BufTy).Contents (Elt Ideal)) :
    (TRef.of (T := ⟨S50000, .f32⟩) main_v16 : TRef sig ⟨S50000, .f32⟩).ofBuf v = v := rfl
theorem toBuf_main_v17 (v : (⟨S50000, .f32⟩ : BufTy).Contents (Elt Ideal)) :
    (TRef.of (T := ⟨S50000, .f32⟩) main_v17 : TRef sig ⟨S50000, .f32⟩).toBuf v = v := rfl
theorem ofBuf_main_v17 (v : (⟨S50000, .f32⟩ : BufTy).Contents (Elt Ideal)) :
    (TRef.of (T := ⟨S50000, .f32⟩) main_v17 : TRef sig ⟨S50000, .f32⟩).ofBuf v = v := rfl
theorem toBuf_main_call1_cst (v : (⟨S_, .f32⟩ : BufTy).Contents (Elt Ideal)) :
    (TRef.of (T := ⟨S_, .f32⟩) main_call1_cst : TRef sig ⟨S_, .f32⟩).toBuf v = v := rfl
theorem ofBuf_main_call1_cst (v : (⟨S_, .f32⟩ : BufTy).Contents (Elt Ideal)) :
    (TRef.of (T := ⟨S_, .f32⟩) main_call1_cst : TRef sig ⟨S_, .f32⟩).ofBuf v = v := rfl
theorem toBuf_main_call1_v0 (v : (⟨S50000x128, .f32⟩ : BufTy).Contents (Elt Ideal)) :
    (TRef.of (T := ⟨S50000x128, .f32⟩) main_call1_v0 : TRef sig ⟨S50000x128, .f32⟩).toBuf v = v := rfl
theorem ofBuf_main_call1_v0 (v : (⟨S50000x128, .f32⟩ : BufTy).Contents (Elt Ideal)) :
    (TRef.of (T := ⟨S50000x128, .f32⟩) main_call1_v0 : TRef sig ⟨S50000x128, .f32⟩).ofBuf v = v := rfl
theorem toBuf_main_v65 (v : (⟨S50000x128, .f32⟩ : BufTy).Contents (Elt Ideal)) :
    (TRef.of (T := ⟨S50000x128, .f32⟩) main_v65 : TRef sig ⟨S50000x128, .f32⟩).toBuf v = v := rfl
theorem ofBuf_main_v65 (v : (⟨S50000x128, .f32⟩ : BufTy).Contents (Elt Ideal)) :
    (TRef.of (T := ⟨S50000x128, .f32⟩) main_v65 : TRef sig ⟨S50000x128, .f32⟩).ofBuf v = v := rfl
theorem toBuf_main_v66 (v : (⟨S50000x128, .f32⟩ : BufTy).Contents (Elt Ideal)) :
    (TRef.of (T := ⟨S50000x128, .f32⟩) main_v66 : TRef sig ⟨S50000x128, .f32⟩).toBuf v = v := rfl
theorem ofBuf_main_v66 (v : (⟨S50000x128, .f32⟩ : BufTy).Contents (Elt Ideal)) :
    (TRef.of (T := ⟨S50000x128, .f32⟩) main_v66 : TRef sig ⟨S50000x128, .f32⟩).ofBuf v = v := rfl

/-! ## The walk -/

set_option maxHeartbeats 64400000 in
/-- With the arrays x₀ … x₁₅ at the argument buffers at launch, the last boundary's contents at the result buffer are the
    composed term of x₀ … x₁₅. -/
def walked (c : Dev nD) (x0 : FVec Ideal S1024x768 .f32) (x1 : FVec Ideal S50000x128 .f32) (x2 : IVec S2x800000 32) (x3 : IVec S50000 32) (x4 : FVec Ideal S768x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S256x128 .f32) (x13 : FVec Ideal S128 .f32) (x14 : FVec Ideal S128x12 .f32) (x15 : FVec Ideal S12 .f32)
    (e0 : (W0 m ρ c (Proc.devRef .tc main_arg0) : FVec Ideal S1024x768 .f32) = x0)
    (e1 : (W0 m ρ c (Proc.devRef .tc main_arg1) : FVec Ideal S50000x128 .f32) = x1)
    (e2 : (W0 m ρ c (Proc.devRef .tc main_arg2) : IVec S2x800000 32) = x2)
    (e3 : (W0 m ρ c (Proc.devRef .tc main_arg3) : IVec S50000 32) = x3)
    (e4 : (W0 m ρ c (Proc.devRef .tc main_arg4) : FVec Ideal S768x128 .f32) = x4)
    (e5 : (W0 m ρ c (Proc.devRef .tc main_arg5) : FVec Ideal S128 .f32) = x5)
    (e6 : (W0 m ρ c (Proc.devRef .tc main_arg6) : FVec Ideal S128x128 .f32) = x6)
    (e7 : (W0 m ρ c (Proc.devRef .tc main_arg7) : FVec Ideal S128 .f32) = x7)
    (e8 : (W0 m ρ c (Proc.devRef .tc main_arg8) : FVec Ideal S128x128 .f32) = x8)
    (e9 : (W0 m ρ c (Proc.devRef .tc main_arg9) : FVec Ideal S128 .f32) = x9)
    (e10 : (W0 m ρ c (Proc.devRef .tc main_arg10) : FVec Ideal S128x128 .f32) = x10)
    (e11 : (W0 m ρ c (Proc.devRef .tc main_arg11) : FVec Ideal S128 .f32) = x11)
    (e12 : (W0 m ρ c (Proc.devRef .tc main_arg12) : FVec Ideal S256x128 .f32) = x12)
    (e13 : (W0 m ρ c (Proc.devRef .tc main_arg13) : FVec Ideal S128 .f32) = x13)
    (e14 : (W0 m ρ c (Proc.devRef .tc main_arg14) : FVec Ideal S128x12 .f32) = x14)
    (e15 : (W0 m ρ c (Proc.devRef .tc main_arg15) : FVec Ideal S12 .f32) = x15) :
    {X : FVec Ideal S1024x12 .f32 // (W12 m ρ c (Proc.devRef .tc main_v82) : FVec Ideal S1024x12 .f32) = X} :=
  ⟨_, by
    simp (disch := decide) only [W12_out, W8_out, W8_ne, W6_out, W6_ne, W2_out, W2_ne, W1, W3, W4, W5, W7, W9, W10, W11,
      hostOps0, hostOps1, hostOps1_1, hostOps1_2, hostOps2, hostOps3, hostOps3_1, hostOps3_2,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      toBuf_main_cst_2, ofBuf_main_cst_2, toBuf_main_call0_v0, ofBuf_main_call0_v0, toBuf_main_call0_v1, ofBuf_main_call0_v1, toBuf_main_v15, ofBuf_main_v15, toBuf_main_v16, ofBuf_main_v16, toBuf_main_v17, ofBuf_main_v17, toBuf_main_call1_cst, ofBuf_main_call1_cst, toBuf_main_call1_v0, ofBuf_main_call1_v0, toBuf_main_v65, ofBuf_main_v65, toBuf_main_v66, ofBuf_main_v66,
      e0, e1, e2, e3, e4, e5, e6, e7, e8, e9, e10, e11, e12, e13, e14, e15]
    first | rfl | fail "the walked term did not close"⟩

end Cert.KernelIdeal.Fold

end
-- ==== Proof.WalkR.lean ====
/-
  The reference's result as one term of its sixteen argument arrays.

  The reference is a straight line of host operations.  Walking the line backwards from the result buffer — an operation's
  own result buffer holds its function of what its operand buffers held before it, any other buffer what it held before —
  ends at the launch contents of the argument buffers, and leaves the operations' composed term of those sixteen arrays.
  In that term a bias made a [1, n] row by a broadcast along the second axis is restated as the same vector reshaped to a
  row, which is one array.
-/
import proofs.«129378_j20761871909702_1_alg».proof.Proof.RefRun
import proofs.«129378_j20761871909702_1_alg».proof.Proof.LibLineEval
import proofs.«129378_j20761871909702_1_alg».proof.Proof.LibMlpRows
import Idealize.ShloMosaic.PureOps.Ideal

set_option maxRecDepth 16384
set_option pp.maxSteps 5000
set_option pp.deepTerms false

noncomputable section

namespace Cert.ReferenceIdeal.Walk

open Cert.ReferenceIdeal Cert.ReferenceIdeal.Gen
open Idealize.ShloMosaic Idealize.ShloMosaic.TcCoe Idealize.ShloMosaic.StableHlo Idealize.SL.Sem
open Cert.LineEval Cert.Layers

/-! ## A typed reference's transports are the identity -/

theorem toBuf_main_call0_cst (v : (⟨S_, .f32⟩ : BufTy).Contents (Elt Ideal)) :
    (TRef.of (T := ⟨S_, .f32⟩) main_call0_cst : TRef sig ⟨S_, .f32⟩).toBuf v = v := rfl
theorem ofBuf_main_call0_cst (v : (⟨S_, .f32⟩ : BufTy).Contents (Elt Ideal)) :
    (TRef.of (T := ⟨S_, .f32⟩) main_call0_cst : TRef sig ⟨S_, .f32⟩).ofBuf v = v := rfl
theorem toBuf_main_call0_v0 (v : (⟨S1024x128, .f32⟩ : BufTy).Contents (Elt Ideal)) :
    (TRef.of (T := ⟨S1024x128, .f32⟩) main_call0_v0 : TRef sig ⟨S1024x128, .f32⟩).toBuf v = v := rfl
theorem ofBuf_main_call0_v0 (v : (⟨S1024x128, .f32⟩ : BufTy).Contents (Elt Ideal)) :
    (TRef.of (T := ⟨S1024x128, .f32⟩) main_call0_v0 : TRef sig ⟨S1024x128, .f32⟩).ofBuf v = v := rfl
theorem toBuf_main_v3 (v : (⟨S1024x128, .f32⟩ : BufTy).Contents (Elt Ideal)) :
    (TRef.of (T := ⟨S1024x128, .f32⟩) main_v3 : TRef sig ⟨S1024x128, .f32⟩).toBuf v = v := rfl
theorem ofBuf_main_v3 (v : (⟨S1024x128, .f32⟩ : BufTy).Contents (Elt Ideal)) :
    (TRef.of (T := ⟨S1024x128, .f32⟩) main_v3 : TRef sig ⟨S1024x128, .f32⟩).ofBuf v = v := rfl
theorem toBuf_main_v4 (v : (⟨S1024x128, .f32⟩ : BufTy).Contents (Elt Ideal)) :
    (TRef.of (T := ⟨S1024x128, .f32⟩) main_v4 : TRef sig ⟨S1024x128, .f32⟩).toBuf v = v := rfl
theorem ofBuf_main_v4 (v : (⟨S1024x128, .f32⟩ : BufTy).Contents (Elt Ideal)) :
    (TRef.of (T := ⟨S1024x128, .f32⟩) main_v4 : TRef sig ⟨S1024x128, .f32⟩).ofBuf v = v := rfl
theorem toBuf_main_cst_2 (v : (⟨S_, .f32⟩ : BufTy).Contents (Elt Ideal)) :
    (TRef.of (T := ⟨S_, .f32⟩) main_cst_2 : TRef sig ⟨S_, .f32⟩).toBuf v = v := rfl
theorem ofBuf_main_cst_2 (v : (⟨S_, .f32⟩ : BufTy).Contents (Elt Ideal)) :
    (TRef.of (T := ⟨S_, .f32⟩) main_cst_2 : TRef sig ⟨S_, .f32⟩).ofBuf v = v := rfl
theorem toBuf_main_call1_v0 (v : (⟨S_, .f32⟩ : BufTy).Contents (Elt Ideal)) :
    (TRef.of (T := ⟨S_, .f32⟩) main_call1_v0 : TRef sig ⟨S_, .f32⟩).toBuf v = v := rfl
theorem ofBuf_main_call1_v0 (v : (⟨S_, .f32⟩ : BufTy).Contents (Elt Ideal)) :
    (TRef.of (T := ⟨S_, .f32⟩) main_call1_v0 : TRef sig ⟨S_, .f32⟩).ofBuf v = v := rfl
theorem toBuf_main_call1_v1 (v : (⟨S50000, .f32⟩ : BufTy).Contents (Elt Ideal)) :
    (TRef.of (T := ⟨S50000, .f32⟩) main_call1_v1 : TRef sig ⟨S50000, .f32⟩).toBuf v = v := rfl
theorem ofBuf_main_call1_v1 (v : (⟨S50000, .f32⟩ : BufTy).Contents (Elt Ideal)) :
    (TRef.of (T := ⟨S50000, .f32⟩) main_call1_v1 : TRef sig ⟨S50000, .f32⟩).ofBuf v = v := rfl
theorem toBuf_main_v22 (v : (⟨S50000, .i1⟩ : BufTy).Contents (Elt Ideal)) :
    (TRef.of (T := ⟨S50000, .i1⟩) main_v22 : TRef sig ⟨S50000, .i1⟩).toBuf v = v := rfl
theorem ofBuf_main_v22 (v : (⟨S50000, .i1⟩ : BufTy).Contents (Elt Ideal)) :
    (TRef.of (T := ⟨S50000, .i1⟩) main_v22 : TRef sig ⟨S50000, .i1⟩).ofBuf v = v := rfl
theorem toBuf_main_v23 (v : (⟨S50000, .f32⟩ : BufTy).Contents (Elt Ideal)) :
    (TRef.of (T := ⟨S50000, .f32⟩) main_v23 : TRef sig ⟨S50000, .f32⟩).toBuf v = v := rfl
theorem ofBuf_main_v23 (v : (⟨S50000, .f32⟩ : BufTy).Contents (Elt Ideal)) :
    (TRef.of (T := ⟨S50000, .f32⟩) main_v23 : TRef sig ⟨S50000, .f32⟩).ofBuf v = v := rfl
theorem toBuf_main_v24 (v : (⟨S50000, .f32⟩ : BufTy).Contents (Elt Ideal)) :
    (TRef.of (T := ⟨S50000, .f32⟩) main_v24 : TRef sig ⟨S50000, .f32⟩).toBuf v = v := rfl
theorem ofBuf_main_v24 (v : (⟨S50000, .f32⟩ : BufTy).Contents (Elt Ideal)) :
    (TRef.of (T := ⟨S50000, .f32⟩) main_v24 : TRef sig ⟨S50000, .f32⟩).ofBuf v = v := rfl
theorem toBuf_main_call2_cst (v : (⟨S_, .f32⟩ : BufTy).Contents (Elt Ideal)) :
    (TRef.of (T := ⟨S_, .f32⟩) main_call2_cst : TRef sig ⟨S_, .f32⟩).toBuf v = v := rfl
theorem ofBuf_main_call2_cst (v : (⟨S_, .f32⟩ : BufTy).Contents (Elt Ideal)) :
    (TRef.of (T := ⟨S_, .f32⟩) main_call2_cst : TRef sig ⟨S_, .f32⟩).ofBuf v = v := rfl
theorem toBuf_main_call2_v0 (v : (⟨S50000x128, .f32⟩ : BufTy).Contents (Elt Ideal)) :
    (TRef.of (T := ⟨S50000x128, .f32⟩) main_call2_v0 : TRef sig ⟨S50000x128, .f32⟩).toBuf v = v := rfl
theorem ofBuf_main_call2_v0 (v : (⟨S50000x128, .f32⟩ : BufTy).Contents (Elt Ideal)) :
    (TRef.of (T := ⟨S50000x128, .f32⟩) main_call2_v0 : TRef sig ⟨S50000x128, .f32⟩).ofBuf v = v := rfl
theorem toBuf_main_v55 (v : (⟨S50000x128, .f32⟩ : BufTy).Contents (Elt Ideal)) :
    (TRef.of (T := ⟨S50000x128, .f32⟩) main_v55 : TRef sig ⟨S50000x128, .f32⟩).toBuf v = v := rfl
theorem ofBuf_main_v55 (v : (⟨S50000x128, .f32⟩ : BufTy).Contents (Elt Ideal)) :
    (TRef.of (T := ⟨S50000x128, .f32⟩) main_v55 : TRef sig ⟨S50000x128, .f32⟩).ofBuf v = v := rfl
theorem toBuf_main_v56 (v : (⟨S50000x128, .f32⟩ : BufTy).Contents (Elt Ideal)) :
    (TRef.of (T := ⟨S50000x128, .f32⟩) main_v56 : TRef sig ⟨S50000x128, .f32⟩).toBuf v = v := rfl
theorem ofBuf_main_v56 (v : (⟨S50000x128, .f32⟩ : BufTy).Contents (Elt Ideal)) :
    (TRef.of (T := ⟨S50000x128, .f32⟩) main_v56 : TRef sig ⟨S50000x128, .f32⟩).ofBuf v = v := rfl
theorem toBuf_main_cst_12 (v : (⟨S_, .f32⟩ : BufTy).Contents (Elt Ideal)) :
    (TRef.of (T := ⟨S_, .f32⟩) main_cst_12 : TRef sig ⟨S_, .f32⟩).toBuf v = v := rfl
theorem ofBuf_main_cst_12 (v : (⟨S_, .f32⟩ : BufTy).Contents (Elt Ideal)) :
    (TRef.of (T := ⟨S_, .f32⟩) main_cst_12 : TRef sig ⟨S_, .f32⟩).ofBuf v = v := rfl
theorem toBuf_main_call3_v0 (v : (⟨S_, .f32⟩ : BufTy).Contents (Elt Ideal)) :
    (TRef.of (T := ⟨S_, .f32⟩) main_call3_v0 : TRef sig ⟨S_, .f32⟩).toBuf v = v := rfl
theorem ofBuf_main_call3_v0 (v : (⟨S_, .f32⟩ : BufTy).Contents (Elt Ideal)) :
    (TRef.of (T := ⟨S_, .f32⟩) main_call3_v0 : TRef sig ⟨S_, .f32⟩).ofBuf v = v := rfl
theorem toBuf_main_call3_v1 (v : (⟨S50000, .f32⟩ : BufTy).Contents (Elt Ideal)) :
    (TRef.of (T := ⟨S50000, .f32⟩) main_call3_v1 : TRef sig ⟨S50000, .f32⟩).toBuf v = v := rfl
theorem ofBuf_main_call3_v1 (v : (⟨S50000, .f32⟩ : BufTy).Contents (Elt Ideal)) :
    (TRef.of (T := ⟨S50000, .f32⟩) main_call3_v1 : TRef sig ⟨S50000, .f32⟩).ofBuf v = v := rfl
theorem toBuf_main_v66 (v : (⟨S50000, .i1⟩ : BufTy).Contents (Elt Ideal)) :
    (TRef.of (T := ⟨S50000, .i1⟩) main_v66 : TRef sig ⟨S50000, .i1⟩).toBuf v = v := rfl
theorem ofBuf_main_v66 (v : (⟨S50000, .i1⟩ : BufTy).Contents (Elt Ideal)) :
    (TRef.of (T := ⟨S50000, .i1⟩) main_v66 : TRef sig ⟨S50000, .i1⟩).ofBuf v = v := rfl
theorem toBuf_main_v67 (v : (⟨S50000, .f32⟩ : BufTy).Contents (Elt Ideal)) :
    (TRef.of (T := ⟨S50000, .f32⟩) main_v67 : TRef sig ⟨S50000, .f32⟩).toBuf v = v := rfl
theorem ofBuf_main_v67 (v : (⟨S50000, .f32⟩ : BufTy).Contents (Elt Ideal)) :
    (TRef.of (T := ⟨S50000, .f32⟩) main_v67 : TRef sig ⟨S50000, .f32⟩).ofBuf v = v := rfl
theorem toBuf_main_v68 (v : (⟨S50000, .f32⟩ : BufTy).Contents (Elt Ideal)) :
    (TRef.of (T := ⟨S50000, .f32⟩) main_v68 : TRef sig ⟨S50000, .f32⟩).toBuf v = v := rfl
theorem ofBuf_main_v68 (v : (⟨S50000, .f32⟩ : BufTy).Contents (Elt Ideal)) :
    (TRef.of (T := ⟨S50000, .f32⟩) main_v68 : TRef sig ⟨S50000, .f32⟩).ofBuf v = v := rfl
theorem toBuf_main_call4_cst (v : (⟨S_, .f32⟩ : BufTy).Contents (Elt Ideal)) :
    (TRef.of (T := ⟨S_, .f32⟩) main_call4_cst : TRef sig ⟨S_, .f32⟩).toBuf v = v := rfl
theorem ofBuf_main_call4_cst (v : (⟨S_, .f32⟩ : BufTy).Contents (Elt Ideal)) :
    (TRef.of (T := ⟨S_, .f32⟩) main_call4_cst : TRef sig ⟨S_, .f32⟩).ofBuf v = v := rfl
theorem toBuf_main_call4_v0 (v : (⟨S50000x128, .f32⟩ : BufTy).Contents (Elt Ideal)) :
    (TRef.of (T := ⟨S50000x128, .f32⟩) main_call4_v0 : TRef sig ⟨S50000x128, .f32⟩).toBuf v = v := rfl
theorem ofBuf_main_call4_v0 (v : (⟨S50000x128, .f32⟩ : BufTy).Contents (Elt Ideal)) :
    (TRef.of (T := ⟨S50000x128, .f32⟩) main_call4_v0 : TRef sig ⟨S50000x128, .f32⟩).ofBuf v = v := rfl
theorem toBuf_main_v99 (v : (⟨S50000x128, .f32⟩ : BufTy).Contents (Elt Ideal)) :
    (TRef.of (T := ⟨S50000x128, .f32⟩) main_v99 : TRef sig ⟨S50000x128, .f32⟩).toBuf v = v := rfl
theorem ofBuf_main_v99 (v : (⟨S50000x128, .f32⟩ : BufTy).Contents (Elt Ideal)) :
    (TRef.of (T := ⟨S50000x128, .f32⟩) main_v99 : TRef sig ⟨S50000x128, .f32⟩).ofBuf v = v := rfl
theorem toBuf_main_v100 (v : (⟨S50000x128, .f32⟩ : BufTy).Contents (Elt Ideal)) :
    (TRef.of (T := ⟨S50000x128, .f32⟩) main_v100 : TRef sig ⟨S50000x128, .f32⟩).toBuf v = v := rfl
theorem ofBuf_main_v100 (v : (⟨S50000x128, .f32⟩ : BufTy).Contents (Elt Ideal)) :
    (TRef.of (T := ⟨S50000x128, .f32⟩) main_v100 : TRef sig ⟨S50000x128, .f32⟩).ofBuf v = v := rfl
theorem toBuf_main_call5_cst (v : (⟨S_, .f32⟩ : BufTy).Contents (Elt Ideal)) :
    (TRef.of (T := ⟨S_, .f32⟩) main_call5_cst : TRef sig ⟨S_, .f32⟩).toBuf v = v := rfl
theorem ofBuf_main_call5_cst (v : (⟨S_, .f32⟩ : BufTy).Contents (Elt Ideal)) :
    (TRef.of (T := ⟨S_, .f32⟩) main_call5_cst : TRef sig ⟨S_, .f32⟩).ofBuf v = v := rfl
theorem toBuf_main_call5_v0 (v : (⟨S1024x128, .f32⟩ : BufTy).Contents (Elt Ideal)) :
    (TRef.of (T := ⟨S1024x128, .f32⟩) main_call5_v0 : TRef sig ⟨S1024x128, .f32⟩).toBuf v = v := rfl
theorem ofBuf_main_call5_v0 (v : (⟨S1024x128, .f32⟩ : BufTy).Contents (Elt Ideal)) :
    (TRef.of (T := ⟨S1024x128, .f32⟩) main_call5_v0 : TRef sig ⟨S1024x128, .f32⟩).ofBuf v = v := rfl
theorem toBuf_main_v117 (v : (⟨S1024x128, .f32⟩ : BufTy).Contents (Elt Ideal)) :
    (TRef.of (T := ⟨S1024x128, .f32⟩) main_v117 : TRef sig ⟨S1024x128, .f32⟩).toBuf v = v := rfl
theorem ofBuf_main_v117 (v : (⟨S1024x128, .f32⟩ : BufTy).Contents (Elt Ideal)) :
    (TRef.of (T := ⟨S1024x128, .f32⟩) main_v117 : TRef sig ⟨S1024x128, .f32⟩).ofBuf v = v := rfl
theorem toBuf_main_v118 (v : (⟨S1024x128, .f32⟩ : BufTy).Contents (Elt Ideal)) :
    (TRef.of (T := ⟨S1024x128, .f32⟩) main_v118 : TRef sig ⟨S1024x128, .f32⟩).toBuf v = v := rfl
theorem ofBuf_main_v118 (v : (⟨S1024x128, .f32⟩ : BufTy).Contents (Elt Ideal)) :
    (TRef.of (T := ⟨S1024x128, .f32⟩) main_v118 : TRef sig ⟨S1024x128, .f32⟩).ofBuf v = v := rfl

/-! ## The walk -/

set_option maxHeartbeats 64400000 in
/-- From any launch contents `V` holding the arrays x₀ … x₁₅ at the argument buffers, the line's fold read at the result
    buffer is the composed term of x₀ … x₁₅. -/
def walked (V : Valuation τ sig (Elt Ideal)) (x0 : FVec Ideal S1024x768 .f32) (x1 : FVec Ideal S50000x128 .f32) (x2 : IVec S2x800000 32) (x3 : IVec S50000 32) (x4 : FVec Ideal S768x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S256x128 .f32) (x13 : FVec Ideal S128 .f32) (x14 : FVec Ideal S128x12 .f32) (x15 : FVec Ideal S12 .f32)
    (e0 : (V (Proc.devRef .tc main_arg0) : FVec Ideal S1024x768 .f32) = x0)
    (e1 : (V (Proc.devRef .tc main_arg1) : FVec Ideal S50000x128 .f32) = x1)
    (e2 : (V (Proc.devRef .tc main_arg2) : IVec S2x800000 32) = x2)
    (e3 : (V (Proc.devRef .tc main_arg3) : IVec S50000 32) = x3)
    (e4 : (V (Proc.devRef .tc main_arg4) : FVec Ideal S768x128 .f32) = x4)
    (e5 : (V (Proc.devRef .tc main_arg5) : FVec Ideal S128 .f32) = x5)
    (e6 : (V (Proc.devRef .tc main_arg6) : FVec Ideal S128x128 .f32) = x6)
    (e7 : (V (Proc.devRef .tc main_arg7) : FVec Ideal S128 .f32) = x7)
    (e8 : (V (Proc.devRef .tc main_arg8) : FVec Ideal S128x128 .f32) = x8)
    (e9 : (V (Proc.devRef .tc main_arg9) : FVec Ideal S128 .f32) = x9)
    (e10 : (V (Proc.devRef .tc main_arg10) : FVec Ideal S128x128 .f32) = x10)
    (e11 : (V (Proc.devRef .tc main_arg11) : FVec Ideal S128 .f32) = x11)
    (e12 : (V (Proc.devRef .tc main_arg12) : FVec Ideal S256x128 .f32) = x12)
    (e13 : (V (Proc.devRef .tc main_arg13) : FVec Ideal S128 .f32) = x13)
    (e14 : (V (Proc.devRef .tc main_arg14) : FVec Ideal S128x12 .f32) = x14)
    (e15 : (V (Proc.devRef .tc main_arg15) : FVec Ideal S12 .f32) = x15)
    (hs128 : S128.ShapeCasts S1x128) (hs12 : S12.ShapeCasts S1x12) :
    {X : FVec Ideal S1024x12 .f32 //
      (after (ValueP.ops (F := Ideal)) V (Proc.devRef .tc main_v122) : FVec Ideal S1024x12 .f32) = X} :=
  ⟨_, by
    simp (disch := decide) only [ValueP.ops, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      toBuf_main_call0_cst, ofBuf_main_call0_cst, toBuf_main_call0_v0, ofBuf_main_call0_v0, toBuf_main_v3, ofBuf_main_v3, toBuf_main_v4, ofBuf_main_v4, toBuf_main_cst_2, ofBuf_main_cst_2, toBuf_main_call1_v0, ofBuf_main_call1_v0, toBuf_main_call1_v1, ofBuf_main_call1_v1, toBuf_main_v22, ofBuf_main_v22, toBuf_main_v23, ofBuf_main_v23, toBuf_main_v24, ofBuf_main_v24, toBuf_main_call2_cst, ofBuf_main_call2_cst, toBuf_main_call2_v0, ofBuf_main_call2_v0, toBuf_main_v55, ofBuf_main_v55, toBuf_main_v56, ofBuf_main_v56, toBuf_main_cst_12, ofBuf_main_cst_12, toBuf_main_call3_v0, ofBuf_main_call3_v0, toBuf_main_call3_v1, ofBuf_main_call3_v1, toBuf_main_v66, ofBuf_main_v66, toBuf_main_v67, ofBuf_main_v67, toBuf_main_v68, ofBuf_main_v68, toBuf_main_call4_cst, ofBuf_main_call4_cst, toBuf_main_call4_v0, ofBuf_main_call4_v0, toBuf_main_v99, ofBuf_main_v99, toBuf_main_v100, ofBuf_main_v100, toBuf_main_call5_cst, ofBuf_main_call5_cst, toBuf_main_call5_v0, ofBuf_main_call5_v0, toBuf_main_v117, ofBuf_main_v117, toBuf_main_v118, ofBuf_main_v118,
      e0, e1, e2, e3, e4, e5, e6, e7, e8, e9, e10, e11, e12, e13, e14, e15]
    first
      | rw [← row_eq_broadcast x5 hs128 bcast_S128_S1x128_1, ← row_eq_broadcast x7 hs128 bcast_S128_S1x128_1,
          ← row_eq_broadcast x13 hs128 bcast_S128_S1x128_1, ← row_eq_broadcast x15 hs12 bcast_S12_S1x12_1]
      | fail "a bias row was not found in the walked term"⟩

end Cert.ReferenceIdeal.Walk

end
-- ==== Proof.Compare.lean ====
/-
  The idealized kernel's result array is the reference's.

  Each program's result is a composed term of the sixteen argument arrays: the kernel's from walking back through its
  regions and host operations, the reference's from walking back along its line of host operations.  The two terms are
  built from the same operations in the same order: the same edge lists with the self-loops appended, the same degree
  counts, reciprocal roots and edge weights, the same gathers, scalings and scatter-adds, the same biases, clippings and
  pooled means — the reference computing the edge bookkeeping once per graph layer, the kernel once — and where the kernel
  runs a region the reference has that region's whole-array form, spelt out.  They are one term.
-/
import proofs.«129378_j20761871909702_1_alg».proof.Proof.WalkK
import proofs.«129378_j20761871909702_1_alg».proof.Proof.WalkR

set_option maxRecDepth 16384
set_option pp.maxSteps 5000
set_option pp.deepTerms false

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

set_option maxHeartbeats 4000000 in
/-- The two composed terms of the same sixteen arrays are one term. -/
theorem terms_eq (c : Dev nD) (V : Valuation Cert.ReferenceIdeal.τ Cert.ReferenceIdeal.sig (Elt Ideal)) (x0 : FVec Ideal S1024x768 .f32) (x1 : FVec Ideal S50000x128 .f32) (x2 : IVec S2x800000 32) (x3 : IVec S50000 32) (x4 : FVec Ideal S768x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S256x128 .f32) (x13 : FVec Ideal S128 .f32) (x14 : FVec Ideal S128x12 .f32) (x15 : FVec Ideal S12 .f32)
    (eK0 : (W0 m ρ c (Proc.devRef .tc main_arg0) : FVec Ideal S1024x768 .f32) = x0)
    (eK1 : (W0 m ρ c (Proc.devRef .tc main_arg1) : FVec Ideal S50000x128 .f32) = x1)
    (eK2 : (W0 m ρ c (Proc.devRef .tc main_arg2) : IVec S2x800000 32) = x2)
    (eK3 : (W0 m ρ c (Proc.devRef .tc main_arg3) : IVec S50000 32) = x3)
    (eK4 : (W0 m ρ c (Proc.devRef .tc main_arg4) : FVec Ideal S768x128 .f32) = x4)
    (eK5 : (W0 m ρ c (Proc.devRef .tc main_arg5) : FVec Ideal S128 .f32) = x5)
    (eK6 : (W0 m ρ c (Proc.devRef .tc main_arg6) : FVec Ideal S128x128 .f32) = x6)
    (eK7 : (W0 m ρ c (Proc.devRef .tc main_arg7) : FVec Ideal S128 .f32) = x7)
    (eK8 : (W0 m ρ c (Proc.devRef .tc main_arg8) : FVec Ideal S128x128 .f32) = x8)
    (eK9 : (W0 m ρ c (Proc.devRef .tc main_arg9) : FVec Ideal S128 .f32) = x9)
    (eK10 : (W0 m ρ c (Proc.devRef .tc main_arg10) : FVec Ideal S128x128 .f32) = x10)
    (eK11 : (W0 m ρ c (Proc.devRef .tc main_arg11) : FVec Ideal S128 .f32) = x11)
    (eK12 : (W0 m ρ c (Proc.devRef .tc main_arg12) : FVec Ideal S256x128 .f32) = x12)
    (eK13 : (W0 m ρ c (Proc.devRef .tc main_arg13) : FVec Ideal S128 .f32) = x13)
    (eK14 : (W0 m ρ c (Proc.devRef .tc main_arg14) : FVec Ideal S128x12 .f32) = x14)
    (eK15 : (W0 m ρ c (Proc.devRef .tc main_arg15) : FVec Ideal S12 .f32) = x15)
    (eR0 : (V (Proc.devRef .tc Cert.ReferenceIdeal.main_arg0) : FVec Ideal S1024x768 .f32) = x0)
    (eR1 : (V (Proc.devRef .tc Cert.ReferenceIdeal.main_arg1) : FVec Ideal S50000x128 .f32) = x1)
    (eR2 : (V (Proc.devRef .tc Cert.ReferenceIdeal.main_arg2) : IVec S2x800000 32) = x2)
    (eR3 : (V (Proc.devRef .tc Cert.ReferenceIdeal.main_arg3) : IVec S50000 32) = x3)
    (eR4 : (V (Proc.devRef .tc Cert.ReferenceIdeal.main_arg4) : FVec Ideal S768x128 .f32) = x4)
    (eR5 : (V (Proc.devRef .tc Cert.ReferenceIdeal.main_arg5) : FVec Ideal S128 .f32) = x5)
    (eR6 : (V (Proc.devRef .tc Cert.ReferenceIdeal.main_arg6) : FVec Ideal S128x128 .f32) = x6)
    (eR7 : (V (Proc.devRef .tc Cert.ReferenceIdeal.main_arg7) : FVec Ideal S128 .f32) = x7)
    (eR8 : (V (Proc.devRef .tc Cert.ReferenceIdeal.main_arg8) : FVec Ideal S128x128 .f32) = x8)
    (eR9 : (V (Proc.devRef .tc Cert.ReferenceIdeal.main_arg9) : FVec Ideal S128 .f32) = x9)
    (eR10 : (V (Proc.devRef .tc Cert.ReferenceIdeal.main_arg10) : FVec Ideal S128x128 .f32) = x10)
    (eR11 : (V (Proc.devRef .tc Cert.ReferenceIdeal.main_arg11) : FVec Ideal S128 .f32) = x11)
    (eR12 : (V (Proc.devRef .tc Cert.ReferenceIdeal.main_arg12) : FVec Ideal S256x128 .f32) = x12)
    (eR13 : (V (Proc.devRef .tc Cert.ReferenceIdeal.main_arg13) : FVec Ideal S128 .f32) = x13)
    (eR14 : (V (Proc.devRef .tc Cert.ReferenceIdeal.main_arg14) : FVec Ideal S128x12 .f32) = x14)
    (eR15 : (V (Proc.devRef .tc Cert.ReferenceIdeal.main_arg15) : FVec Ideal S12 .f32) = x15) :
    (walked m ρ c x0 x1 x2 x3 x4 x5 x6 x7 x8 x9 x10 x11 x12 x13 x14 x15 eK0 eK1 eK2 eK3 eK4 eK5 eK6 eK7 eK8 eK9 eK10 eK11 eK12 eK13 eK14 eK15).val
      = (Cert.ReferenceIdeal.Walk.walked V x0 x1 x2 x3 x4 x5 x6 x7 x8 x9 x10 x11 x12 x13 x14 x15 eR0 eR1 eR2 eR3 eR4 eR5 eR6 eR7 eR8 eR9 eR10 eR11 eR12 eR13 eR14 eR15 shapeCasts_S128_S1x128 shapeCasts_S12_S1x12).val := by
  first | rfl | fail "the two terms differ"

/-- From memories agreeing on the arguments, the kernel's last boundary at its result buffer is the reference's line of
    host operations folded over its launch contents and read at its result buffer. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15)) :
    (W12 m ρ c (Proc.devRef .tc main_v82) : FVec Ideal S1024x12 .f32)
      = after (Cert.ReferenceIdeal.ValueP.ops (F := Ideal)) (launchContents m' c) (Proc.devRef .tc Cert.ReferenceIdeal.main_v122) :=
  (walked m ρ c (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) rfl rfl rfl rfl rfl rfl rfl rfl rfl rfl rfl rfl rfl rfl rfl rfl).property.trans
    ((terms_eq m ρ c (launchContents m' c) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) rfl rfl rfl rfl rfl rfl rfl rfl rfl rfl rfl rfl rfl rfl rfl rfl h0 h1 h2 h3 h4 h5 h6 h7 h8 h9 h10 h11 h12 h13 h14 h15).trans
      (Cert.ReferenceIdeal.Walk.walked (launchContents m' c) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) h0 h1 h2 h3 h4 h5 h6 h7 h8 h9 h10 h11 h12 h13 h14 h15 shapeCasts_S128_S1x128 shapeCasts_S12_S1x12).property.symm)

end Cert.KernelIdeal.Fold

end
-- ==== Proof.lean ====
/-
  A molecule-property network — a sequence encoder, two graph-convolution layers, a mean pool over graphs and a fusion
  head — as a kernel program against its plain array reference, on the extended reals.

  The kernel program runs four pipelined regions among stretches of host operations: the encoder and the head are
  two-layer perceptrons  max(x·W₁ + b₁, 0)·W₂ + b₂  over 1024 rows in one block; each graph layer's dense half multiplies
  the 50000 node rows by a [128, 128] weight in ten blocks of 5000 rows, the second clipping its input at zero first.  The
  edge bookkeeping (the edge lists with a self-loop per node appended, the degree counts, their reciprocal roots where the
  degree is positive, the per-edge weights), the gathers of source rows, their scaling and scatter-add into destination
  rows, the biases, the pooled means and the joining of the two feature blocks are host operations, spelt as in the
  reference.  On the extended reals a narrowing of a float format is the identity, a matrix product into a zero accumulator
  and the host's contraction are the same sum over the shared axis, and a row of a product depends on that row of the left
  operand only; so each region leaves the reference's whole-array form of its inputs, and the two programs compute the
  same operations in the same order on the same arguments.  No law that fails at an infinity is used: the precondition is
  not opened.

  The three frames are the generated ones (the reference's is its run with the result dropped), the idealization rewrote
  nothing, and the algebraic claim pairs the kernel's run, its result named at the last boundary, with the reference's run.
-/
import proofs.«129378_j20761871909702_1_alg».proof.Defs
import proofs.«129378_j20761871909702_1_alg».proof.Proof.Gen.Kernel
import proofs.«129378_j20761871909702_1_alg».proof.Proof.Gen.Kernel.Skeleton
import proofs.«129378_j20761871909702_1_alg».proof.Proof.Gen.Kernel.Launch
import proofs.«129378_j20761871909702_1_alg».proof.Proof.Gen.Kernel.Points
import proofs.«129378_j20761871909702_1_alg».proof.Proof.Gen.Kernel.Frame
import proofs.«129378_j20761871909702_1_alg».proof.Proof.Gen.KernelIdeal
import proofs.«129378_j20761871909702_1_alg».proof.Proof.Gen.KernelIdeal.Skeleton
import proofs.«129378_j20761871909702_1_alg».proof.Proof.Gen.KernelIdeal.Launch
import proofs.«129378_j20761871909702_1_alg».proof.Proof.Gen.KernelIdeal.Points
import proofs.«129378_j20761871909702_1_alg».proof.Proof.Gen.KernelIdeal.Frame
import proofs.«129378_j20761871909702_1_alg».proof.Proof.Gen.ReferenceIdeal
import proofs.«129378_j20761871909702_1_alg».proof.Proof.Gen.Pre_finite_inputs
import proofs.«129378_j20761871909702_1_alg».proof.Proof.KernelRun
import proofs.«129378_j20761871909702_1_alg».proof.Proof.RefRun
import proofs.«129378_j20761871909702_1_alg».proof.Proof.Compare
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs run; the kernel's result array ends at its last boundary's contents and the reference's at its line of
    host operations folded over the launch contents, and from memories agreeing on the arguments these are one array. -/
theorem algebraic : Cert.algebraic_KernelIdeal_ReferenceIdeal := by
  intro m ρ m' ρ' _ hagree
  refine ⟨fun c => Cert.KernelIdeal.Gen.W12 m ρ c (Proc.devRef .tc Cert.KernelIdeal.main_v82),
    Cert.KernelIdeal.Result.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  exact (Cert.KernelIdeal.Fold.result_eq m ρ m' c h0 h1 h2 h3 h4 h5 h6 h7 h8 h9 h10 h11 h12 h13 h14 h15).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
